-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S8192x2048 : Shape := ⟨2, ![8192, 2048]⟩
abbrev S8192x8192 : Shape := ⟨2, ![8192, 8192]⟩
abbrev S8192x100 : Shape := ⟨2, ![8192, 100]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192x100 : S_.BroadcastsInDim S8192x100 (![] : Fin 0 → Fin S8192x100.rank)
  reducesTo_S8192x100_S_d0_1 : S8192x100.ReducesTo [0, 1] S_

variable [Facts]

def fn_part2 {F : FTy → Type} [FloatOps F] (main_arg7 : FVec F S8192x100 .f32) (main_arg8 : FVec F S8192x100 .f32) (main_arg9 : FVec F S8192x100 .f32) (main_v33 : IVec S_ 1) : IVec S_ 1 :=
  let main_v34 : FVec F S8192x100 .f32 := Host.absf main_arg7
  let main_cst_12 : FVec F S_ .f32 := constant S_ .f32 0x7F800000#32
  let main_v35 : FVec F S8192x100 .f32 := broadcastInDim S8192x100 ![] bcast_S_S8192x100 main_cst_12
  let main_v36 : IVec S8192x100 1 := cmpf .olt main_v34 main_v35
  let main_c_13 : IVec S_ 1 := constantI S_ 1 1#1
  let main_v37 : IVec S_ 1 := (fun x v => Host.reduce IntOp.andi x v reducesTo_S8192x100_S_d0_1 h_S_) main_v36 main_c_13
  let main_v38 : IVec S_ 1 := andi main_v33 main_v37
  let main_v39 : FVec F S8192x100 .f32 := Host.absf main_arg8
  let main_cst_14 : FVec F S_ .f32 := constant S_ .f32 0x7F800000#32
  let main_v40 : FVec F S8192x100 .f32 := broadcastInDim S8192x100 ![] bcast_S_S8192x100 main_cst_14
  let main_v41 : IVec S8192x100 1 := cmpf .olt main_v39 main_v40
  let main_c_15 : IVec S_ 1 := constantI S_ 1 1#1
  let main_v42 : IVec S_ 1 := (fun x v => Host.reduce IntOp.andi x v reducesTo_S8192x100_S_d0_1 h_S_) main_v41 main_c_15
  let main_v43 : IVec S_ 1 := andi main_v38 main_v42
  let main_v44 : FVec F S8192x100 .f32 := Host.absf main_arg9
  let main_cst_16 : FVec F S_ .f32 := constant S_ .f32 0x7F800000#32
  let main_v45 : FVec F S8192x100 .f32 := broadcastInDim S8192x100 ![] bcast_S_S8192x100 main_cst_16
  let main_v46 : IVec S8192x100 1 := cmpf .olt main_v44 main_v45
  let main_c_17 : IVec S_ 1 := constantI S_ 1 1#1
  let main_v47 : IVec S_ 1 := (fun x v => Host.reduce IntOp.andi x v reducesTo_S8192x100_S_d0_1 h_S_) main_v46 main_c_17
  let main_v48 : IVec S_ 1 := andi main_v43 main_v47
  main_v48

def fn_part1 {F : FTy → Type} [FloatOps F] (main_arg4 : FVec F S8192x8192 .f32) (main_arg5 : FVec F S8192x8192 .f32) (main_arg6 : FVec F S8192x8192 .f32) (main_arg7 : FVec F S8192x100 .f32) (main_arg8 : FVec F S8192x100 .f32) (main_arg9 : FVec F S8192x100 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x2048 .f32) (main_arg1 : FVec F S8192x2048 .f32) (main_arg2 : FVec F S8192x2048 .f32) (main_arg3 : FVec F S8192x8192 .f32) (main_arg4 : FVec F S8192x8192 .f32) (main_arg5 : FVec F S8192x8192 .f32) (main_arg6 : FVec F S8192x8192 .f32) (main_arg7 : FVec F S8192x100 .f32) (main_arg8 : FVec F S8192x100 .f32) (main_arg9 : FVec F S8192x100 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_v13 main_v16
-- ==== Kernel.lean ====
abbrev S64x2048 : Shape := ⟨2, ![64, 2048]⟩
abbrev S8192x2048 : Shape := ⟨2, ![8192, 2048]⟩
abbrev S8192x8192 : Shape := ⟨2, ![8192, 8192]⟩
abbrev S8192x100 : Shape := ⟨2, ![8192, 100]⟩
abbrev S64x8192 : Shape := ⟨2, ![64, 8192]⟩
abbrev S16x64x100 : Shape := ⟨3, ![16, 64, 100]⟩
abbrev S512x2048 : Shape := ⟨2, ![512, 2048]⟩
abbrev S512x100 : Shape := ⟨2, ![512, 100]⟩
abbrev S64x512 : Shape := ⟨2, ![64, 512]⟩
abbrev S1x64x100 : Shape := ⟨3, ![1, 64, 100]⟩
abbrev S64x100 : Shape := ⟨2, ![64, 100]⟩
abbrev S64x64x100 : Shape := ⟨3, ![64, 64, 100]⟩
abbrev S128x8192 : Shape := ⟨2, ![128, 8192]⟩
abbrev S128x100 : Shape := ⟨2, ![128, 100]⟩
abbrev S64x128 : Shape := ⟨2, ![64, 128]⟩
abbrev S_ : Shape := ⟨0, ![]⟩

abbrev nBuf : Space → Nat
  | .hbm => 24
  | .vmem => 33
  | .smem => 0
  | _ => 0

abbrev bufTy : (tb : Table) → Fin (tcTables nBuf tb) → BufTy
  | .hbm, ⟨0, _⟩ => ⟨S64x2048, .f32⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x100, .f32⟩
  | .hbm, ⟨8, _⟩ => ⟨S8192x100, .f32⟩
  | .hbm, ⟨9, _⟩ => ⟨S8192x100, .f32⟩
  | .hbm, ⟨10, _⟩ => ⟨S64x8192, .bf16⟩
  | .hbm, ⟨11, _⟩ => ⟨S16x64x100, .f32⟩
  | .hbm, ⟨12, _⟩ => ⟨S64x8192, .bf16⟩
  | .hbm, ⟨13, _⟩ => ⟨S64x64x100, .f32⟩
  | .hbm, ⟨14, _⟩ => ⟨S64x8192, .bf16⟩
  | .hbm, ⟨15, _⟩ => ⟨S64x64x100, .f32⟩
  | .hbm, ⟨16, _⟩ => ⟨S_, .f32⟩
  | .hbm, ⟨17, _⟩ => ⟨S64x100, .f32⟩
  | .hbm, ⟨18, _⟩ => ⟨S_, .f32⟩
  | .hbm, ⟨19, _⟩ => ⟨S64x100, .f32⟩
  | .hbm, ⟨20, _⟩ => ⟨S64x100, .f32⟩
  | .hbm, ⟨21, _⟩ => ⟨S_, .f32⟩
  | .hbm, ⟨22, _⟩ => ⟨S64x100, .f32⟩
  | .hbm, ⟨23, _⟩ => ⟨S64x100, .f32⟩
  | .local _ .vmem, ⟨0, _⟩ => ⟨S64x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x100, .f32⟩
  | .local _ .vmem, ⟨6, _⟩ => ⟨S512x100, .f32⟩
  | .local _ .vmem, ⟨7, _⟩ => ⟨S64x512, .bf16⟩
  | .local _ .vmem, ⟨8, _⟩ => ⟨S64x512, .bf16⟩
  | .local _ .vmem, ⟨9, _⟩ => ⟨S1x64x100, .f32⟩
  | .local _ .vmem, ⟨10, _⟩ => ⟨S1x64x100, .f32⟩
  | .local _ .vmem, ⟨11, _⟩ => ⟨S64x8192, .bf16⟩
  | .local _ .vmem, ⟨12, _⟩ => ⟨S128x8192, .f32⟩
  | .local _ .vmem, ⟨13, _⟩ => ⟨S128x8192, .f32⟩
  | .local _ .vmem, ⟨14, _⟩ => ⟨S128x8192, .f32⟩
  | .local _ .vmem, ⟨15, _⟩ => ⟨S128x8192, .f32⟩
  | .local _ .vmem, ⟨16, _⟩ => ⟨S128x100, .f32⟩
  | .local _ .vmem, ⟨17, _⟩ => ⟨S128x100, .f32⟩
  | .local _ .vmem, ⟨18, _⟩ => ⟨S64x128, .bf16⟩
  | .local _ .vmem, ⟨19, _⟩ => ⟨S64x128, .bf16⟩
  | .local _ .vmem, ⟨20, _⟩ => ⟨S1x64x100, .f32⟩
  | .local _ .vmem, ⟨21, _⟩ => ⟨S1x64x100, .f32⟩
  | .local _ .vmem, ⟨22, _⟩ => ⟨S64x8192, .bf16⟩
  | .local _ .vmem, ⟨23, _⟩ => ⟨S128x8192, .f32⟩
  | .local _ .vmem, ⟨24, _⟩ => ⟨S128x8192, .f32⟩
  | .local _ .vmem, ⟨25, _⟩ => ⟨S128x8192, .f32⟩
  | .local _ .vmem, ⟨26, _⟩ => ⟨S128x8192, .f32⟩
  | .local _ .vmem, ⟨27, _⟩ => ⟨S128x100, .f32⟩
  | .local _ .vmem, ⟨28, _⟩ => ⟨S128x100, .f32⟩
  | .local _ .vmem, ⟨29, _⟩ => ⟨S64x128, .bf16⟩
  | .local _ .vmem, ⟨30, _⟩ => ⟨S64x128, .bf16⟩
  | .local _ .vmem, ⟨31, _⟩ => ⟨S1x64x100, .f32⟩
  | .local _ .vmem, ⟨32, _⟩ => ⟨S1x64x100, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1_0 : Ref sig .tc := ⟨.hbm, 12, rfl⟩
abbrev main_v1_1 : Ref sig .tc := ⟨.hbm, 13, rfl⟩
abbrev main_v2_0 : Ref sig .tc := ⟨.hbm, 14, rfl⟩
abbrev main_v2_1 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S64x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x100 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S64x2048_S64x2048_0_0 : ∀ a, (![0, 0] : Fin 2 → Nat) a + S64x2048.size a ≤ S64x2048.size a
  h_S64x2048 : 0 < S64x2048.numel
  natLt_1_32 : 1 < 32
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S64x512_S64x512_0_0 : ∀ a, (![0, 0] : Fin 2 → Nat) a + S64x512.size a ≤ S64x512.size a
  h_S64x512 : 0 < S64x512.numel
  packedbf16_S64x512_S64x512_0_0 : (Rect.unit (s := S64x512) ![0, 0] S64x512.size inb_S64x512_S64x512_0_0).PackedRows (EltTy.packing .bf16)
  inb_S512x100_S512x100_0_0 : ∀ a, (![0, 0] : Fin 2 → Nat) a + S512x100.size a ≤ S512x100.size a
  h_S512x100 : 0 < S512x100.numel
  shapeCasts_S64x100_S1x64x100 : S64x100.ShapeCasts S1x64x100
  inb_S1x64x100_S1x64x100_0_0_0 : ∀ a, (![0, 0, 0] : Fin 3 → Nat) a + S1x64x100.size a ≤ S1x64x100.size a
  h_S1x64x100 : 0 < S1x64x100.numel
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S128x8192_S128x8192_0_0 : ∀ a, (![0, 0] : Fin 2 → Nat) a + S128x8192.size a ≤ S128x8192.size a
  h_S128x8192 : 0 < S128x8192.numel
  inb_S64x128_S64x128_0_0 : ∀ a, (![0, 0] : Fin 2 → Nat) a + S64x128.size a ≤ S64x128.size a
  h_S64x128 : 0 < S64x128.numel
  packedbf16_S64x128_S64x128_0_0 : (Rect.unit (s := S64x128) ![0, 0] S64x128.size inb_S64x128_S64x128_0_0).PackedRows (EltTy.packing .bf16)
  inb_S128x100_S128x100_0_0 : ∀ a, (![0, 0] : Fin 2 → Nat) a + S128x100.size a ≤ S128x100.size a
  h_S128x100 : 0 < S128x100.numel
  reducesTo_S16x64x100_S64x100_d0 : S16x64x100.ReducesTo [0] S64x100
  h_S_ : 0 < S_.numel
  reducesTo_S64x64x100_S64x100_d0 : S64x64x100.ReducesTo [0] S64x100
  dot_S64x2048_S512x2048_S64x512_1_1_0_0_n_n_wf : DotDims.WF S64x2048 S512x2048 S64x512 [1] [1] [0] [0] [] []
  dot_S64x512_S512x100_S64x100_1_0_0_1_n_n_wf : DotDims.WF S64x512 S512x100 S64x100 [1] [0] [0] [1] [] []
  dot_S64x8192_S128x8192_S64x128_1_1_0_0_n_n_wf : DotDims.WF S64x8192 S128x8192 S64x128 [1] [1] [0] [0] [] []
  dot_S64x128_S128x100_S64x100_1_0_0_1_n_n_wf : DotDims.WF S64x128 S128x100 S64x100 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x100.size a ≤ S8192x100.size a
  hwx0_3 : ∀ i : grid0.Coords, EltTy.bits .f32 = 32 ∨ (Rect.block (s := S8192x100) S512x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x8192.size a
  hwx0_4 : ∀ i : grid0.Coords, EltTy.bits .bf16 = 32 ∨ (Rect.block (s := S64x8192) S64x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x100.size a ≤ S16x64x100.size a
  hwx0_5 : ∀ i : grid0.Coords, EltTy.bits .f32 = 32 ∨ (Rect.block (s := S16x64x100) S1x64x100.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x8192.size a
  hwx1_0 : ∀ i : grid1.Coords, EltTy.bits .bf16 = 32 ∨ (Rect.block (s := S64x8192) S64x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S8192x8192.size a
  hwx1_1 : ∀ i : grid1.Coords, EltTy.bits .f32 = 32 ∨ (Rect.block (s := S8192x8192) S128x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8192.size a ≤ S8192x8192.size a
  hwx1_2 : ∀ i : grid1.Coords, EltTy.bits .f32 = 32 ∨ (Rect.block (s := S8192x8192) S128x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x100.size a ≤ S8192x100.size a
  hwx1_3 : ∀ i : grid1.Coords, EltTy.bits .f32 = 32 ∨ (Rect.block (s := S8192x100) S128x100.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x8192.size a
  hwx1_4 : ∀ i : grid1.Coords, EltTy.bits .bf16 = 32 ∨ (Rect.block (s := S64x8192) S64x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x100.size a ≤ S64x64x100.size a
  hwx1_5 : ∀ i : grid1.Coords, EltTy.bits .f32 = 32 ∨ (Rect.block (s := S64x64x100) S1x64x100.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S64x8192.size a
  hwx2_0 : ∀ i : grid2.Coords, EltTy.bits .bf16 = 32 ∨ (Rect.block (s := S64x8192) S64x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x8192.size a ≤ S8192x8192.size a
  hwx2_1 : ∀ i : grid2.Coords, EltTy.bits .f32 = 32 ∨ (Rect.block (s := S8192x8192) S128x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S8192x8192.size a
  hwx2_2 : ∀ i : grid2.Coords, EltTy.bits .f32 = 32 ∨ (Rect.block (s := S8192x8192) S128x8192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x100.size a ≤ S8192x100.size a
  hwx2_3 : ∀ i : grid2.Coords, EltTy.bits .f32 = 32 ∨ (Rect.block (s := S8192x100) S128x100.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x8192.size a
  hwx2_4 : ∀ i : grid2.Coords, EltTy.bits .bf16 = 32 ∨ (Rect.block (s := S64x8192) S64x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x64x100.size a ≤ S64x64x100.size a
  hwx2_5 : ∀ i : grid2.Coords, EltTy.bits .f32 = 32 ∨ (Rect.block (s := S64x64x100) S1x64x100.size (cc2_transform_5 i) (hinb2_5 i)).WholeWords (EltTy.packing .f32)

variable [Facts₀]

def dot_S64x2048_S512x2048_S64x512_1_1_0_0_n_n : DotDims S64x2048 S512x2048 S64x512 where
  lhsContracting := [1]
  rhsContracting := [1]
  lhsNonContracting := [0]
  rhsNonContracting := [0]
  lhsBatch := []
  rhsBatch := []
  wf := dot_S64x2048_S512x2048_S64x512_1_1_0_0_n_n_wf
def dot_S64x512_S512x100_S64x100_1_0_0_1_n_n : DotDims S64x512 S512x100 S64x100 where
  lhsContracting := [1]
  rhsContracting := [0]
  lhsNonContracting := [0]
  rhsNonContracting := [1]
  lhsBatch := []
  rhsBatch := []
  wf := dot_S64x512_S512x100_S64x100_1_0_0_1_n_n_wf
def dot_S64x8192_S128x8192_S64x128_1_1_0_0_n_n : DotDims S64x8192 S128x8192 S64x128 where
  lhsContracting := [1]
  rhsContracting := [1]
  lhsNonContracting := [0]
  rhsNonContracting := [0]
  lhsBatch := []
  rhsBatch := []
  wf := dot_S64x8192_S128x8192_S64x128_1_1_0_0_n_n_wf
def dot_S64x128_S128x100_S64x100_1_0_0_1_n_n : DotDims S64x128 S128x100 S64x100 where
  lhsContracting := [1]
  rhsContracting := [0]
  lhsNonContracting := [0]
  rhsNonContracting := [1]
  lhsBatch := []
  rhsBatch := []
  wf := dot_S64x128_S128x100_S64x100_1_0_0_1_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x64x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S64x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x100.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S64x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1x64x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1_0) S64x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x8192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x100.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_0) S64x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2_1) S1x64x100.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x2048 : Shape := ⟨2, ![64, 2048]⟩
abbrev S8192x2048 : Shape := ⟨2, ![8192, 2048]⟩
abbrev S8192x8192 : Shape := ⟨2, ![8192, 8192]⟩
abbrev S8192x100 : Shape := ⟨2, ![8192, 100]⟩
abbrev S_ : Shape := ⟨0, ![]⟩
abbrev S2048x8192 : Shape := ⟨2, ![2048, 8192]⟩
abbrev S64x8192 : Shape := ⟨2, ![64, 8192]⟩
abbrev S64x100 : Shape := ⟨2, ![64, 100]⟩

abbrev nBuf : Space → Nat
  | .hbm => 55
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x100, .f32⟩
  | .hbm, ⟨8, _⟩ => ⟨S8192x100, .f32⟩
  | .hbm, ⟨9, _⟩ => ⟨S8192x100, .f32⟩
  | .hbm, ⟨10, _⟩ => ⟨S_, .f32⟩
  | .hbm, ⟨11, _⟩ => ⟨S64x2048, .f32⟩
  | .hbm, ⟨12, _⟩ => ⟨S64x2048, .i1⟩
  | .hbm, ⟨13, _⟩ => ⟨S64x2048, .f32⟩
  | .hbm, ⟨14, _⟩ => ⟨S2048x8192, .f32⟩
  | .hbm, ⟨15, _⟩ => ⟨S64x8192, .f32⟩
  | .hbm, ⟨16, _⟩ => ⟨S2048x8192, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .i1⟩
  | .hbm, ⟨21, _⟩ => ⟨S_, .f32⟩
  | .hbm, ⟨22, _⟩ => ⟨S64x8192, .f32⟩
  | .hbm, ⟨23, _⟩ => ⟨S64x8192, .i1⟩
  | .hbm, ⟨24, _⟩ => ⟨S64x8192, .i1⟩
  | .hbm, ⟨25, _⟩ => ⟨S64x8192, .f32⟩
  | .hbm, ⟨26, _⟩ => ⟨S8192x8192, .f32⟩
  | .hbm, ⟨27, _⟩ => ⟨S64x8192, .f32⟩
  | .hbm, ⟨28, _⟩ => ⟨S8192x8192, .f32⟩
  | .hbm, ⟨29, _⟩ => ⟨S64x8192, .f32⟩
  | .hbm, ⟨30, _⟩ => ⟨S_, .f32⟩
  | .hbm, ⟨31, _⟩ => ⟨S64x8192, .f32⟩
  | .hbm, ⟨32, _⟩ => ⟨S64x8192, .i1⟩
  | .hbm, ⟨33, _⟩ => ⟨S_, .f32⟩
  | .hbm, ⟨34, _⟩ => ⟨S64x8192, .f32⟩
  | .hbm, ⟨35, _⟩ => ⟨S64x8192, .i1⟩
  | .hbm, ⟨36, _⟩ => ⟨S64x8192, .i1⟩
  | .hbm, ⟨37, _⟩ => ⟨S64x8192, .f32⟩
  | .hbm, ⟨38, _⟩ => ⟨S8192x8192, .f32⟩
  | .hbm, ⟨39, _⟩ => ⟨S64x8192, .f32⟩
  | .hbm, ⟨40, _⟩ => ⟨S8192x8192, .f32⟩
  | .hbm, ⟨41, _⟩ => ⟨S64x8192, .f32⟩
  | .hbm, ⟨42, _⟩ => ⟨S_, .f32⟩
  | .hbm, ⟨43, _⟩ => ⟨S64x8192, .f32⟩
  | .hbm, ⟨44, _⟩ => ⟨S64x8192, .i1⟩
  | .hbm, ⟨45, _⟩ => ⟨S_, .f32⟩
  | .hbm, ⟨46, _⟩ => ⟨S64x8192, .f32⟩
  | .hbm, ⟨47, _⟩ => ⟨S64x8192, .i1⟩
  | .hbm, ⟨48, _⟩ => ⟨S64x8192, .i1⟩
  | .hbm, ⟨49, _⟩ => ⟨S64x8192, .f32⟩
  | .hbm, ⟨50, _⟩ => ⟨S64x100, .f32⟩
  | .hbm, ⟨51, _⟩ => ⟨S64x100, .f32⟩
  | .hbm, ⟨52, _⟩ => ⟨S64x100, .f32⟩
  | .hbm, ⟨53, _⟩ => ⟨S64x100, .f32⟩
  | .hbm, ⟨54, _⟩ => ⟨S64x100, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  transposes_S8192x2048_S2048x8192_1_0 : S8192x2048.Transposes [1, 0] S2048x8192
  bcast_S_S64x8192 : S_.BroadcastsInDim S64x8192 (![] : Fin 0 → Fin S64x8192.rank)
  transposes_S8192x8192_S8192x8192_1_0 : S8192x8192.Transposes [1, 0] S8192x8192
  dot_S64x2048_S2048x8192_S64x8192_1_0_0_1_n_n_wf : DotDims.WF S64x2048 S2048x8192 S64x8192 [1] [0] [0] [1] [] []
  dot_S64x8192_S8192x8192_S64x8192_1_0_0_1_n_n_wf : DotDims.WF S64x8192 S8192x8192 S64x8192 [1] [0] [0] [1] [] []
  dot_S64x8192_S8192x100_S64x100_1_0_0_1_n_n_wf : DotDims.WF S64x8192 S8192x100 S64x100 [1] [0] [0] [1] [] []

variable [Facts₀]

def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf
def dot_S64x8192_S8192x100_S64x100_1_0_0_1_n_n : DotDims S64x8192 S8192x100 S64x100 where
  lhsContracting := [1]
  rhsContracting := [0]
  lhsNonContracting := [0]
  rhsNonContracting := [1]
  lhsBatch := []
  rhsBatch := []
  wf := dot_S64x8192_S8192x100_S64x100_1_0_0_1_n_n_wf

class Facts : Prop extends Facts₀ where

variable [Facts]
-- ==== Proof.WholeRun.lean ====
/-
  The idealized kernel's whole run, with every buffer named at the end.

  The program is three tiled layer computations followed by three sums over the tile axis and two additions. Its
  run is followed boundary by boundary: the contents of every buffer when a layer's computation is entered, what
  that computation's write-backs leave in its two result arrays, and finally the host operations applied to the
  last contents. This module states that run with ALL buffers at the final contents (the argument arrays among
  them, unchanged), and then reads the final contents of the result buffer back through the boundaries: it is the
  sum over the tile axis of each layer's per-tile scores, added in order; and the activations a layer reads are
  the previous layer's result array.
-/
import proofs.«169855_j90048284328142_2_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer that outlives the program ends at
    the contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The result, read back through the boundaries -/

/-- The host operations after the three layers: each layer's per-tile scores summed over the tile axis, and the
    three sums added in order. -/
def tail (p0 : (⟨S16x64x100, .f32⟩ : BufTy).Contents (Elt F)) (p1 p2 : (⟨S64x64x100, .f32⟩ : BufTy).Contents (Elt F)) :
    (⟨S64x100, .f32⟩ : BufTy).Contents (Elt F) :=
  addf (addf (Host.reduceAdd p0 (constant (F := F) S_ .f32 0x00000000#32) reducesTo_S16x64x100_S64x100_d0 h_S_)
      (Host.reduceAdd p1 (constant (F := F) S_ .f32 0x00000000#32) reducesTo_S64x64x100_S64x100_d0 h_S_))
    (Host.reduceAdd p2 (constant (F := F) S_ .f32 0x00000000#32) reducesTo_S64x64x100_S64x100_d0 h_S_)

/-- The result buffer ends at the tail applied to the three per-tile arrays as the last layer leaves them. -/
theorem out_eq (c : Dev nD) : W4 m ρ c (Proc.devRef .tc main_v7)
    = tail (W3 m ρ c (Proc.devRef .tc main_v0_1)) (W3 m ρ c (Proc.devRef .tc main_v1_1)) (W3 m ρ c (Proc.devRef .tc main_v2_1)) := by
  show StableHlo.after hostOps3 (W3 m ρ c) (Proc.devRef .tc main_v7) = _
  after_results
  rfl

/-- No later layer writes an earlier layer's per-tile array: each is what its own layer's write-backs left. -/
theorem part0 (c : Dev nD) : W3 m ρ c (Proc.devRef .tc main_v0_1) = (dat0 (V0 m ρ) c).arrAt 5 cfg0.N :=
  (W3_of_ne m ρ c main_v0_1 (by decide)).trans ((W2_of_ne m ρ c main_v0_1 (by decide)).trans (W1_arr m ρ c 5))
theorem part1 (c : Dev nD) : W3 m ρ c (Proc.devRef .tc main_v1_1) = (dat1 (V1 m ρ) c).arrAt 5 cfg1.N :=
  (W3_of_ne m ρ c main_v1_1 (by decide)).trans (W2_arr m ρ c 5)
theorem part2 (c : Dev nD) : W3 m ρ c (Proc.devRef .tc main_v2_1) = (dat2 (V2 m ρ) c).arrAt 5 cfg2.N :=
  W3_arr m ρ c 5

/-- What the second layer finds: the first layer's outputs, and its own arguments as launched. -/
theorem V1_act (c : Dev nD) : V1 m ρ c main_v0_0 = (dat0 (V0 m ρ) c).arrAt 4 cfg0.N := W1_arr m ρ c 4
theorem V1_arg3 (c : Dev nD) : V1 m ρ c main_arg3 = m ((c : Thread nD τ).loc main_arg3) := W1_of_ne m ρ c main_arg3 (by decide)
theorem V1_arg4 (c : Dev nD) : V1 m ρ c main_arg4 = m ((c : Thread nD τ).loc main_arg4) := W1_of_ne m ρ c main_arg4 (by decide)
theorem V1_arg8 (c : Dev nD) : V1 m ρ c main_arg8 = m ((c : Thread nD τ).loc main_arg8) := W1_of_ne m ρ c main_arg8 (by decide)

/-- What the third layer finds: the second layer's outputs, and its own arguments as launched. -/
theorem V2_act (c : Dev nD) : V2 m ρ c main_v1_0 = (dat1 (V1 m ρ) c).arrAt 4 cfg1.N := W2_arr m ρ c 4
theorem V2_arg5 (c : Dev nD) : V2 m ρ c main_arg5 = m ((c : Thread nD τ).loc main_arg5) :=
  (W2_of_ne m ρ c main_arg5 (by decide)).trans (W1_of_ne m ρ c main_arg5 (by decide))
theorem V2_arg6 (c : Dev nD) : V2 m ρ c main_arg6 = m ((c : Thread nD τ).loc main_arg6) :=
  (W2_of_ne m ρ c main_arg6 (by decide)).trans (W1_of_ne m ρ c main_arg6 (by decide))
theorem V2_arg9 (c : Dev nD) : V2 m ρ c main_arg9 = m ((c : Thread nD τ).loc main_arg9) :=
  (W2_of_ne m ρ c main_arg9 (by decide)).trans (W1_of_ne m ρ c main_arg9 (by decide))

/-- The run with the result named and the arguments unchanged. -/
theorem run : θ_run defs (onTc (τ := τ) (main (F := F))) ⟨m, fun _ => 0, ρ⟩ (fun r => ∀ c : Dev nD,
      r.2.mem ((c.tc : Thread nD τ).loc main_v7)
        = tail ((dat0 (V0 m ρ) c).arrAt 5 cfg0.N) ((dat1 (V1 m ρ) c).arrAt 5 cfg1.N) ((dat2 (V2 m ρ) c).arrAt 5 cfg2.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v7 (by decide))).trans (by rw [out_eq, part0, part1, part2]),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_all m ρ)

end Cert.KernelIdeal.Whole

end
-- ==== Proof.Products.lean ====
/-
  The kernels' matrix products read at an index, at the ideal instance: a product into a zero accumulator is the
  plain sum over the contracted axis of the operands' products. Two kinds occur in each layer: activations
  [64, K] against a tile of synapse rows [T, K], contracting both second axes (row b against row h); and a tile of
  outputs [64, T] against the tile's output strengths [T, 100], contracting the neuron axis.
-/
import proofs.«169855_j90048284328142_2_alg».proof.Proof.Gen.KernelIdeal
import Idealize.ShloMosaic.PureOps.Ideal.Laws
import Idealize.ShloMosaic.Lib.ValueIdx

noncomputable section

namespace Cert.KernelIdeal.Products

open Cert.KernelIdeal Cert.KernelIdeal.Gen Idealize.ShloMosaic Idealize.ShloMosaic.ValueIdx

theorem rows_2048_512_l0 (i : S64x512.Idx) (q : dot_S64x2048_S512x2048_S64x512_1_1_0_0_n_n.contr.Idx) : (dot_S64x2048_S512x2048_S64x512_1_1_0_0_n_n.lhsIdx i q 0).val = (i 0).val := by
  unfold DotDims.lhsIdx
  rw [dif_neg (show ¬(0 : Fin S64x2048.rank) ∈ dot_S64x2048_S512x2048_S64x512_1_1_0_0_n_n.lhsBatch by decide), dif_pos (show (0 : Fin S64x2048.rank) ∈ dot_S64x2048_S512x2048_S64x512_1_1_0_0_n_n.lhsNonContracting by decide)]
  rfl
theorem rows_2048_512_l1 (i : S64x512.Idx) (q : dot_S64x2048_S512x2048_S64x512_1_1_0_0_n_n.contr.Idx) : (dot_S64x2048_S512x2048_S64x512_1_1_0_0_n_n.lhsIdx i q 1).val = (q ⟨0, by decide⟩).val :=
  dot_S64x2048_S512x2048_S64x512_1_1_0_0_n_n.lhsIdx_val_of_single rfl i q
theorem rows_2048_512_r0 (i : S64x512.Idx) (q : dot_S64x2048_S512x2048_S64x512_1_1_0_0_n_n.contr.Idx) : (dot_S64x2048_S512x2048_S64x512_1_1_0_0_n_n.rhsIdx i q 0).val = (i 1).val := by
  unfold DotDims.rhsIdx
  rw [dif_neg (show ¬(0 : Fin S512x2048.rank) ∈ dot_S64x2048_S512x2048_S64x512_1_1_0_0_n_n.rhsBatch by decide), dif_pos (show (0 : Fin S512x2048.rank) ∈ dot_S64x2048_S512x2048_S64x512_1_1_0_0_n_n.rhsNonContracting by decide)]
  rfl
theorem rows_2048_512_r1 (i : S64x512.Idx) (q : dot_S64x2048_S512x2048_S64x512_1_1_0_0_n_n.contr.Idx) : (dot_S64x2048_S512x2048_S64x512_1_1_0_0_n_n.rhsIdx i q 1).val = (q ⟨0, by decide⟩).val :=
  dot_S64x2048_S512x2048_S64x512_1_1_0_0_n_n.rhsIdx_val_of_single rfl i q

/-- First layer's segment sums on a tile of 512 neurons: entry (b, h) is row b of the input bits against row h of the tile. -/
theorem rows_2048_512 (l : FVec Ideal S64x2048 .bf16) (r : FVec Ideal S512x2048 .bf16) (b : Fin 64) (h : Fin 512) :
    matmul dot_S64x2048_S512x2048_S64x512_1_1_0_0_n_n none l r (constant (F := Ideal) S64x512 .f32 0x00000000#32) (ix2 b h)
      = ∑ k : Fin 2048, l (ix2 b k) * r (ix2 h k) := by
  simp only [matmul]
  rw [Ideal.matmul_constant_zero_apply, ← Equiv.sum_comp (contrEquiv1 dot_S64x2048_S512x2048_S64x512_1_1_0_0_n_n 2048 rfl rfl).symm]
  refine Finset.sum_congr rfl fun k _ => ?_
  have hk := contrEquiv1_symm_val dot_S64x2048_S512x2048_S64x512_1_1_0_0_n_n 2048 rfl rfl k
  have el : dot_S64x2048_S512x2048_S64x512_1_1_0_0_n_n.lhsIdx (ix2 b h) ((contrEquiv1 dot_S64x2048_S512x2048_S64x512_1_1_0_0_n_n 2048 rfl rfl).symm k) = ix2 b k :=
    funext fun a => Fin.ext (by
      match a with
      | ⟨0, _⟩ => exact rows_2048_512_l0 _ _
      | ⟨1, _⟩ => exact (rows_2048_512_l1 _ _).trans hk)
  have er : dot_S64x2048_S512x2048_S64x512_1_1_0_0_n_n.rhsIdx (ix2 b h) ((contrEquiv1 dot_S64x2048_S512x2048_S64x512_1_1_0_0_n_n 2048 rfl rfl).symm k) = ix2 h k :=
    funext fun a => Fin.ext (by
      match a with
      | ⟨0, _⟩ => exact rows_2048_512_r0 _ _
      | ⟨1, _⟩ => exact (rows_2048_512_r1 _ _).trans hk)
  rw [el, er]

theorem cols_512_l0 (i : S64x100.Idx) (q : dot_S64x512_S512x100_S64x100_1_0_0_1_n_n.contr.Idx) : (dot_S64x512_S512x100_S64x100_1_0_0_1_n_n.lhsIdx i q 0).val = (i 0).val := by
  unfold DotDims.lhsIdx
  rw [dif_neg (show ¬(0 : Fin S64x512.rank) ∈ dot_S64x512_S512x100_S64x100_1_0_0_1_n_n.lhsBatch by decide), dif_pos (show (0 : Fin S64x512.rank) ∈ dot_S64x512_S512x100_S64x100_1_0_0_1_n_n.lhsNonContracting by decide)]
  rfl
theorem cols_512_l1 (i : S64x100.Idx) (q : dot_S64x512_S512x100_S64x100_1_0_0_1_n_n.contr.Idx) : (dot_S64x512_S512x100_S64x100_1_0_0_1_n_n.lhsIdx i q 1).val = (q ⟨0, by decide⟩).val :=
  dot_S64x512_S512x100_S64x100_1_0_0_1_n_n.lhsIdx_val_of_single rfl i q
theorem cols_512_r1 (i : S64x100.Idx) (q : dot_S64x512_S512x100_S64x100_1_0_0_1_n_n.contr.Idx) : (dot_S64x512_S512x100_S64x100_1_0_0_1_n_n.rhsIdx i q 1).val = (i 1).val := by
  unfold DotDims.rhsIdx
  rw [dif_neg (show ¬(1 : Fin S512x100.rank) ∈ dot_S64x512_S512x100_S64x100_1_0_0_1_n_n.rhsBatch by decide), dif_pos (show (1 : Fin S512x100.rank) ∈ dot_S64x512_S512x100_S64x100_1_0_0_1_n_n.rhsNonContracting by decide)]
  rfl
theorem cols_512_r0 (i : S64x100.Idx) (q : dot_S64x512_S512x100_S64x100_1_0_0_1_n_n.contr.Idx) : (dot_S64x512_S512x100_S64x100_1_0_0_1_n_n.rhsIdx i q 0).val = (q ⟨0, by decide⟩).val :=
  dot_S64x512_S512x100_S64x100_1_0_0_1_n_n.rhsIdx_val_of_single rfl i q

/-- First layer's tile score: entry (b, c) is the tile's 512 outputs on row b against column c of the tile's output strengths. -/
theorem cols_512 (l : FVec Ideal S64x512 .bf16) (r : FVec Ideal S512x100 .bf16) (b : Fin 64) (h : Fin 100) :
    matmul dot_S64x512_S512x100_S64x100_1_0_0_1_n_n none l r (constant (F := Ideal) S64x100 .f32 0x00000000#32) (ix2 b h)
      = ∑ k : Fin 512, l (ix2 b k) * r (ix2 k h) := by
  simp only [matmul]
  rw [Ideal.matmul_constant_zero_apply, ← Equiv.sum_comp (contrEquiv1 dot_S64x512_S512x100_S64x100_1_0_0_1_n_n 512 rfl rfl).symm]
  refine Finset.sum_congr rfl fun k _ => ?_
  have hk := contrEquiv1_symm_val dot_S64x512_S512x100_S64x100_1_0_0_1_n_n 512 rfl rfl k
  have el : dot_S64x512_S512x100_S64x100_1_0_0_1_n_n.lhsIdx (ix2 b h) ((contrEquiv1 dot_S64x512_S512x100_S64x100_1_0_0_1_n_n 512 rfl rfl).symm k) = ix2 b k :=
    funext fun a => Fin.ext (by
      match a with
      | ⟨0, _⟩ => exact cols_512_l0 _ _
      | ⟨1, _⟩ => exact (cols_512_l1 _ _).trans hk)
  have er : dot_S64x512_S512x100_S64x100_1_0_0_1_n_n.rhsIdx (ix2 b h) ((contrEquiv1 dot_S64x512_S512x100_S64x100_1_0_0_1_n_n 512 rfl rfl).symm k) = ix2 k h :=
    funext fun a => Fin.ext (by
      match a with
      | ⟨1, _⟩ => exact cols_512_r1 _ _
      | ⟨0, _⟩ => exact (cols_512_r0 _ _).trans hk)
  rw [el, er]

theorem rows_8192_128_l0 (i : S64x128.Idx) (q : dot_S64x8192_S128x8192_S64x128_1_1_0_0_n_n.contr.Idx) : (dot_S64x8192_S128x8192_S64x128_1_1_0_0_n_n.lhsIdx i q 0).val = (i 0).val := by
  unfold DotDims.lhsIdx
  rw [dif_neg (show ¬(0 : Fin S64x8192.rank) ∈ dot_S64x8192_S128x8192_S64x128_1_1_0_0_n_n.lhsBatch by decide), dif_pos (show (0 : Fin S64x8192.rank) ∈ dot_S64x8192_S128x8192_S64x128_1_1_0_0_n_n.lhsNonContracting by decide)]
  rfl
theorem rows_8192_128_l1 (i : S64x128.Idx) (q : dot_S64x8192_S128x8192_S64x128_1_1_0_0_n_n.contr.Idx) : (dot_S64x8192_S128x8192_S64x128_1_1_0_0_n_n.lhsIdx i q 1).val = (q ⟨0, by decide⟩).val :=
  dot_S64x8192_S128x8192_S64x128_1_1_0_0_n_n.lhsIdx_val_of_single rfl i q
theorem rows_8192_128_r0 (i : S64x128.Idx) (q : dot_S64x8192_S128x8192_S64x128_1_1_0_0_n_n.contr.Idx) : (dot_S64x8192_S128x8192_S64x128_1_1_0_0_n_n.rhsIdx i q 0).val = (i 1).val := by
  unfold DotDims.rhsIdx
  rw [dif_neg (show ¬(0 : Fin S128x8192.rank) ∈ dot_S64x8192_S128x8192_S64x128_1_1_0_0_n_n.rhsBatch by decide), dif_pos (show (0 : Fin S128x8192.rank) ∈ dot_S64x8192_S128x8192_S64x128_1_1_0_0_n_n.rhsNonContracting by decide)]
  rfl
theorem rows_8192_128_r1 (i : S64x128.Idx) (q : dot_S64x8192_S128x8192_S64x128_1_1_0_0_n_n.contr.Idx) : (dot_S64x8192_S128x8192_S64x128_1_1_0_0_n_n.rhsIdx i q 1).val = (q ⟨0, by decide⟩).val :=
  dot_S64x8192_S128x8192_S64x128_1_1_0_0_n_n.rhsIdx_val_of_single rfl i q

/-- A later layer's segment sums on a tile of 128 neurons: entry (b, h) is row b of the activations against row h of the tile. -/
theorem rows_8192_128 (l : FVec Ideal S64x8192 .bf16) (r : FVec Ideal S128x8192 .bf16) (b : Fin 64) (h : Fin 128) :
    matmul dot_S64x8192_S128x8192_S64x128_1_1_0_0_n_n none l r (constant (F := Ideal) S64x128 .f32 0x00000000#32) (ix2 b h)
      = ∑ k : Fin 8192, l (ix2 b k) * r (ix2 h k) := by
  simp only [matmul]
  rw [Ideal.matmul_constant_zero_apply, ← Equiv.sum_comp (contrEquiv1 dot_S64x8192_S128x8192_S64x128_1_1_0_0_n_n 8192 rfl rfl).symm]
  refine Finset.sum_congr rfl fun k _ => ?_
  have hk := contrEquiv1_symm_val dot_S64x8192_S128x8192_S64x128_1_1_0_0_n_n 8192 rfl rfl k
  have el : dot_S64x8192_S128x8192_S64x128_1_1_0_0_n_n.lhsIdx (ix2 b h) ((contrEquiv1 dot_S64x8192_S128x8192_S64x128_1_1_0_0_n_n 8192 rfl rfl).symm k) = ix2 b k :=
    funext fun a => Fin.ext (by
      match a with
      | ⟨0, _⟩ => exact rows_8192_128_l0 _ _
      | ⟨1, _⟩ => exact (rows_8192_128_l1 _ _).trans hk)
  have er : dot_S64x8192_S128x8192_S64x128_1_1_0_0_n_n.rhsIdx (ix2 b h) ((contrEquiv1 dot_S64x8192_S128x8192_S64x128_1_1_0_0_n_n 8192 rfl rfl).symm k) = ix2 h k :=
    funext fun a => Fin.ext (by
      match a with
      | ⟨0, _⟩ => exact rows_8192_128_r0 _ _
      | ⟨1, _⟩ => exact (rows_8192_128_r1 _ _).trans hk)
  rw [el, er]

theorem cols_128_l0 (i : S64x100.Idx) (q : dot_S64x128_S128x100_S64x100_1_0_0_1_n_n.contr.Idx) : (dot_S64x128_S128x100_S64x100_1_0_0_1_n_n.lhsIdx i q 0).val = (i 0).val := by
  unfold DotDims.lhsIdx
  rw [dif_neg (show ¬(0 : Fin S64x128.rank) ∈ dot_S64x128_S128x100_S64x100_1_0_0_1_n_n.lhsBatch by decide), dif_pos (show (0 : Fin S64x128.rank) ∈ dot_S64x128_S128x100_S64x100_1_0_0_1_n_n.lhsNonContracting by decide)]
  rfl
theorem cols_128_l1 (i : S64x100.Idx) (q : dot_S64x128_S128x100_S64x100_1_0_0_1_n_n.contr.Idx) : (dot_S64x128_S128x100_S64x100_1_0_0_1_n_n.lhsIdx i q 1).val = (q ⟨0, by decide⟩).val :=
  dot_S64x128_S128x100_S64x100_1_0_0_1_n_n.lhsIdx_val_of_single rfl i q
theorem cols_128_r1 (i : S64x100.Idx) (q : dot_S64x128_S128x100_S64x100_1_0_0_1_n_n.contr.Idx) : (dot_S64x128_S128x100_S64x100_1_0_0_1_n_n.rhsIdx i q 1).val = (i 1).val := by
  unfold DotDims.rhsIdx
  rw [dif_neg (show ¬(1 : Fin S128x100.rank) ∈ dot_S64x128_S128x100_S64x100_1_0_0_1_n_n.rhsBatch by decide), dif_pos (show (1 : Fin S128x100.rank) ∈ dot_S64x128_S128x100_S64x100_1_0_0_1_n_n.rhsNonContracting by decide)]
  rfl
theorem cols_128_r0 (i : S64x100.Idx) (q : dot_S64x128_S128x100_S64x100_1_0_0_1_n_n.contr.Idx) : (dot_S64x128_S128x100_S64x100_1_0_0_1_n_n.rhsIdx i q 0).val = (q ⟨0, by decide⟩).val :=
  dot_S64x128_S128x100_S64x100_1_0_0_1_n_n.rhsIdx_val_of_single rfl i q

/-- A later layer's tile score: entry (b, c) is the tile's 128 outputs on row b against column c of the tile's output strengths. -/
theorem cols_128 (l : FVec Ideal S64x128 .bf16) (r : FVec Ideal S128x100 .bf16) (b : Fin 64) (h : Fin 100) :
    matmul dot_S64x128_S128x100_S64x100_1_0_0_1_n_n none l r (constant (F := Ideal) S64x100 .f32 0x00000000#32) (ix2 b h)
      = ∑ k : Fin 128, l (ix2 b k) * r (ix2 k h) := by
  simp only [matmul]
  rw [Ideal.matmul_constant_zero_apply, ← Equiv.sum_comp (contrEquiv1 dot_S64x128_S128x100_S64x100_1_0_0_1_n_n 128 rfl rfl).symm]
  refine Finset.sum_congr rfl fun k _ => ?_
  have hk := contrEquiv1_symm_val dot_S64x128_S128x100_S64x100_1_0_0_1_n_n 128 rfl rfl k
  have el : dot_S64x128_S128x100_S64x100_1_0_0_1_n_n.lhsIdx (ix2 b h) ((contrEquiv1 dot_S64x128_S128x100_S64x100_1_0_0_1_n_n 128 rfl rfl).symm k) = ix2 b k :=
    funext fun a => Fin.ext (by
      match a with
      | ⟨0, _⟩ => exact cols_128_l0 _ _
      | ⟨1, _⟩ => exact (cols_128_l1 _ _).trans hk)
  have er : dot_S64x128_S128x100_S64x100_1_0_0_1_n_n.rhsIdx (ix2 b h) ((contrEquiv1 dot_S64x128_S128x100_S64x100_1_0_0_1_n_n 128 rfl rfl).symm k) = ix2 k h :=
    funext fun a => Fin.ext (by
      match a with
      | ⟨1, _⟩ => exact cols_128_r1 _ _
      | ⟨0, _⟩ => exact (cols_128_r0 _ _).trans hk)
  rw [el, er]

end Cert.KernelIdeal.Products

end
-- ==== Proof.Spec.lean ====
/-
  The function both programs compute, index by index on the extended reals.

  A batch of 64 inputs of 2048 features is thresholded at 1/2 into bits. Each of three layers has 8192 neurons;
  a neuron has two segments, each a row of a synapse matrix; a segment's sum is the inner product of its row
  with the previous layer's bits, and the neuron outputs 1 when either sum reaches 4, else 0. The class scores
  are, added over the three layers, the inner products of a layer's outputs with that layer's output strengths.

  The one law used: addition on the extended reals is commutative and associative, so a sum over the 8192 neurons
  is the sum, over consecutive tiles of neurons, of each tile's sum. Nothing here needs finiteness.
-/
import Idealize.ShloMosaic.PureOps.Ideal
import Idealize.ShloMosaic.Lib.ValueIdx
import Mathlib.Algebra.BigOperators.Fin

noncomputable section

namespace Cert.SegmentNet

open Idealize.ShloMosaic Idealize.ShloMosaic.ValueIdx

/-- A two-axis array of extended reals. -/
abbrev Arr2 (n0 n1 : Nat) := (⟨2, ![n0, n1]⟩ : Shape).Idx → EReal

/-- A one-bit word as the extended real 0 or 1. -/
def bit (w : BitVec 1) : EReal := ((w.toNat : ℝ) : EReal)

/-- A one-bit word widened with zeros to 32 bits and read as a signed integer is the same number 0 or 1. -/
theorem toInt_widen (w : BitVec 1) : (w.setWidth 32).toInt = (w.toNat : ℤ) := by
  rcases BitVec.eq_zero_or_eq_one w with h | h <;> subst h <;> decide

theorem bit_of_widen (w : BitVec 1) : (((w.setWidth 32).toInt : ℝ) : EReal) = bit w := by
  unfold bit; rw [toInt_widen]; simp

/-- The input bit: 1 where the input exceeds 1/2. -/
def inBit (x : EReal) : EReal := bit (Ideal.cmp .ogt x (Ideal.ofBits .f32 0x3F000000#32))

/-- A neuron's output from its two segments' sums: 1 when either reaches 4. -/
def fire (z0 z1 : EReal) : EReal :=
  bit (IntOp.ori (Ideal.cmp .oge z0 (Ideal.ofBits .f32 0x40800000#32)) (Ideal.cmp .oge z1 (Ideal.ofBits .f32 0x40800000#32)))

/-- The sum of segment row h of w against row b of the activations a. -/
def seg {K : Nat} (a : Arr2 64 K) (w : Arr2 8192 K) (b : Fin 64) (h : Fin 8192) : EReal :=
  ∑ k : Fin K, a (ix2 b k) * w (ix2 h k)

/-- Neuron h's output on batch row b. -/
def layerAt {K : Nat} (a : Arr2 64 K) (w0 w1 : Arr2 8192 K) (b : Fin 64) (h : Fin 8192) : EReal :=
  fire (seg a w0 b h) (seg a w1 b h)

/-- A layer's outputs as an array. -/
def layer {K : Nat} (a : Arr2 64 K) (w0 w1 : Arr2 8192 K) : Arr2 64 8192 := fun i =>
  layerAt a w0 w1 ⟨(i 0).val, (i 0).isLt⟩ ⟨(i 1).val, (i 1).isLt⟩

theorem layer_ix2 {K : Nat} (a : Arr2 64 K) (w0 w1 : Arr2 8192 K) (b : Fin 64) (h : Fin 8192) :
    layer a w0 w1 (ix2 b h) = layerAt a w0 w1 b h := rfl

/-- The input's bits as an array. -/
def inBits (x : Arr2 64 2048) : Arr2 64 2048 := fun i => inBit (x i)

/-- Class c's score on batch row b from one layer: its outputs against its output strengths, over all neurons. -/
def score (a : Arr2 64 8192) (o : Arr2 8192 100) (b : Fin 64) (c : Fin 100) : EReal :=
  ∑ h : Fin 8192, a (ix2 b h) * o (ix2 h c)

/-- The same restricted to tile t of 512 consecutive neurons. -/
def tileScore512 (a : Arr2 64 8192) (o : Arr2 8192 100) (t : Fin 16) (b : Fin 64) (c : Fin 100) : EReal :=
  ∑ r : Fin 512, a (ix2 b ⟨t.val * 512 + r.val, by have := t.isLt; have := r.isLt; omega⟩)
    * o (ix2 ⟨t.val * 512 + r.val, by have := t.isLt; have := r.isLt; omega⟩ c)

/-- The same restricted to tile t of 128 consecutive neurons. -/
def tileScore128 (a : Arr2 64 8192) (o : Arr2 8192 100) (t : Fin 64) (b : Fin 64) (c : Fin 100) : EReal :=
  ∑ r : Fin 128, a (ix2 b ⟨t.val * 128 + r.val, by have := t.isLt; have := r.isLt; omega⟩)
    * o (ix2 ⟨t.val * 128 + r.val, by have := t.isLt; have := r.isLt; omega⟩ c)

/-- A three-axis array of extended reals. -/
abbrev Arr3 (n0 n1 n2 : Nat) := (⟨3, ![n0, n1, n2]⟩ : Shape).Idx → EReal

/-- A layer's scores tile by tile, as an array over (tile, batch row, class); tiles of 512 neurons. -/
def tiles512 (a : Arr2 64 8192) (o : Arr2 8192 100) : Arr3 16 64 100 := fun i =>
  tileScore512 a o ⟨(i 0).val, (i 0).isLt⟩ ⟨(i 1).val, (i 1).isLt⟩ ⟨(i 2).val, (i 2).isLt⟩

/-- The same with tiles of 128 neurons. -/
def tiles128 (a : Arr2 64 8192) (o : Arr2 8192 100) : Arr3 64 64 100 := fun i =>
  tileScore128 a o ⟨(i 0).val, (i 0).isLt⟩ ⟨(i 1).val, (i 1).isLt⟩ ⟨(i 2).val, (i 2).isLt⟩

theorem tiles512_ix3 (a : Arr2 64 8192) (o : Arr2 8192 100) (t : Fin 16) (b : Fin 64) (c : Fin 100) :
    tiles512 a o (ix3 t b c) = tileScore512 a o t b c := rfl

theorem tiles128_ix3 (a : Arr2 64 8192) (o : Arr2 8192 100) (t : Fin 64) (b : Fin 64) (c : Fin 100) :
    tiles128 a o (ix3 t b c) = tileScore128 a o t b c := rfl

theorem tile_lt {N T : Nat} (t : Fin N) (r : Fin T) : t.val * T + r.val < N * T := by
  have h1 : (t.val + 1) * T ≤ N * T := Nat.mul_le_mul_right T t.isLt
  have h2 := r.isLt
  rw [Nat.add_mul, Nat.one_mul] at h1
  omega

/-- A sum over N·T consecutive indices is the sum over N tiles of each tile's T terms. -/
theorem sum_tiles {M : Type*} [AddCommMonoid M] {n : Nat} (N T : Nat) (hn : N * T = n) (f : Fin n → M) :
    ∑ h, f h = ∑ t : Fin N, ∑ r : Fin T, f ⟨t.val * T + r.val, hn ▸ tile_lt t r⟩ := by
  subst hn
  rw [← Equiv.sum_comp finProdFinEquiv f, Fintype.sum_prod_type]
  refine Finset.sum_congr rfl fun t _ => Finset.sum_congr rfl fun r _ => congrArg f (Fin.ext ?_)
  simp [finProdFinEquiv, Nat.mul_comm, Nat.add_comm]

/-- A layer's score is the sum of its sixteen tiles of 512 neurons. -/
theorem score_tiles512 (a : Arr2 64 8192) (o : Arr2 8192 100) (b : Fin 64) (c : Fin 100) :
    score a o b c = ∑ t : Fin 16, tileScore512 a o t b c :=
  sum_tiles 16 512 (by norm_num) fun h : Fin 8192 => a (ix2 b h) * o (ix2 h c)

/-- A layer's score is the sum of its sixty-four tiles of 128 neurons. -/
theorem score_tiles128 (a : Arr2 64 8192) (o : Arr2 8192 100) (b : Fin 64) (c : Fin 100) :
    score a o b c = ∑ t : Fin 64, tileScore128 a o t b c :=
  sum_tiles 64 128 (by norm_num) fun h : Fin 8192 => a (ix2 b h) * o (ix2 h c)

/-- The three layers' outputs, from the arguments. -/
def act1 (x : Arr2 64 2048) (w00 w01 : Arr2 8192 2048) : Arr2 64 8192 := layer (inBits x) w00 w01
def act2 (x : Arr2 64 2048) (w00 w01 : Arr2 8192 2048) (w10 w11 : Arr2 8192 8192) : Arr2 64 8192 :=
  layer (act1 x w00 w01) w10 w11
def act3 (x : Arr2 64 2048) (w00 w01 : Arr2 8192 2048) (w10 w11 w20 w21 : Arr2 8192 8192) : Arr2 64 8192 :=
  layer (act2 x w00 w01 w10 w11) w20 w21

/-- The class scores. -/
def logits (x : Arr2 64 2048) (w00 w01 : Arr2 8192 2048) (w10 w11 w20 w21 : Arr2 8192 8192)
    (o0 o1 o2 : Arr2 8192 100) : Arr2 64 100 := fun i =>
  (score (act1 x w00 w01) o0 ⟨(i 0).val, (i 0).isLt⟩ ⟨(i 1).val, (i 1).isLt⟩
    + score (act2 x w00 w01 w10 w11) o1 ⟨(i 0).val, (i 0).isLt⟩ ⟨(i 1).val, (i 1).isLt⟩)
    + score (act3 x w00 w01 w10 w11 w20 w21) o2 ⟨(i 0).val, (i 0).isLt⟩ ⟨(i 1).val, (i 1).isLt⟩

end Cert.SegmentNet

end
-- ==== Proof.Bodies.lean ====
/-
  What each layer's tile computation stores, entry by entry, at the ideal instance.

  A tile's outputs: entry (b, r) is 1 when either segment sum of the tile's neuron r on batch row b reaches 4, else
  0 — the comparison's bit, widened and converted, is the number 0 or 1, and roundings are the identity. In the
  first layer the activations are the input's bits (1 where the input exceeds 1/2). A tile's scores: entry (b, c) is
  the sum over the tile's neurons of output times output strength.
-/
import proofs.«169855_j90048284328142_2_alg».proof.Proof.Gen.KernelIdeal.Skeleton
import proofs.«169855_j90048284328142_2_alg».proof.Proof.Products
import proofs.«169855_j90048284328142_2_alg».proof.Proof.Spec
import Idealize.ShloMosaic.Lib.Pipeline.Value

noncomputable section

namespace Cert.KernelIdeal.Bodies

open Cert.KernelIdeal Cert.KernelIdeal.Gen Cert.KernelIdeal.Products Cert.SegmentNet
open Idealize.ShloMosaic Idealize.ShloMosaic.ValueIdx

/-- Dropping the leading unit axis of an index of a [1, 64, 100] block. -/
theorem tail_ix3 (b : Fin 64) (c : Fin 100) : (fun a : Fin 2 => (ix3 (0 : Fin 1) b c) a.succ) = ix2 b c :=
  funext fun a => by match a with | ⟨0, _⟩ => rfl | ⟨1, _⟩ => rfl

/-! ## The first layer (input bits; tiles of 512 neurons) -/

/-- The input's bits as the first layer computes them: the comparison with 1/2, widened, converted, rounded. -/
def inputBits (x0 : FVec Ideal S64x2048 .f32) : FVec Ideal S64x2048 .bf16 :=
  truncf .bf16 (sitofp .f32 (extui 32 (cmpf .ogt x0 (broadcast S64x2048 (Scalar.ofBits (F := Ideal) .f32 0x3F000000#32))) natLt_1_32)) bitsLt_bf16_f32

theorem inputBits_apply (x0 : FVec Ideal S64x2048 .f32) (i : S64x2048.Idx) : (inputBits x0 i : EReal) = inBit (x0 i) :=
  bit_of_widen _

/-- The tile's outputs, first layer. -/
theorem fired0 (x0 : FVec Ideal S64x2048 .f32) (x1 x2 : FVec Ideal S512x2048 .f32) (b : Fin 64) (r : Fin 512) :
    (k0_pay1 (F := Ideal) x0 x1 x2 (ix2 b r) : EReal)
      = fire (∑ k : Fin 2048, inBit (x0 (ix2 b k)) * x1 (ix2 r k)) (∑ k : Fin 2048, inBit (x0 (ix2 b k)) * x2 (ix2 r k)) := by
  have e : (k0_pay1 (F := Ideal) x0 x1 x2 (ix2 b r) : EReal)
      = ((((IntOp.ori
          (Ideal.cmp .oge (matmul dot_S64x2048_S512x2048_S64x512_1_1_0_0_n_n none (inputBits x0)
              (truncf .bf16 x1 bitsLt_bf16_f32) (constant (F := Ideal) S64x512 .f32 0x00000000#32) (ix2 b r)) (Ideal.ofBits .f32 0x40800000#32))
          (Ideal.cmp .oge (matmul dot_S64x2048_S512x2048_S64x512_1_1_0_0_n_n none (inputBits x0)
              (truncf .bf16 x2 bitsLt_bf16_f32) (constant (F := Ideal) S64x512 .f32 0x00000000#32) (ix2 b r)) (Ideal.ofBits .f32 0x40800000#32))).setWidth 32).toInt : ℝ) : EReal) := rfl
  rw [e, bit_of_widen, rows_2048_512, rows_2048_512]
  simp only [inputBits_apply]
  rfl

/-- The tile's scores, first layer. -/
theorem tile0 (x0 : FVec Ideal S64x2048 .f32) (x1 x2 : FVec Ideal S512x2048 .f32) (x3 : FVec Ideal S512x100 .f32)
    (b : Fin 64) (c : Fin 100) :
    (k0_pay2 (F := Ideal) x0 x1 x2 x3 (ix3 (0 : Fin 1) b c) : EReal)
      = ∑ r : Fin 512, (k0_pay1 (F := Ideal) x0 x1 x2 (ix2 b r) : EReal) * (x3 (ix2 r c) : EReal) := by
  unfold k0_pay2
  refine (shapeCast_addUnit_apply ![64, 100] _ shapeCasts_S64x100_S1x64x100 (ix3 (0 : Fin 1) b c)).trans ?_
  rw [tail_ix3]
  exact cols_512 _ _ b c

/-! ## A later layer (tiles of 128 neurons) -/

/-- The tile's outputs, second layer. -/
theorem fired1 (x0 : FVec Ideal S64x8192 .bf16) (x1 x2 : FVec Ideal S128x8192 .f32) (b : Fin 64) (r : Fin 128) :
    (k1_pay1 (F := Ideal) x0 x1 x2 (ix2 b r) : EReal)
      = fire (∑ k : Fin 8192, x0 (ix2 b k) * x1 (ix2 r k)) (∑ k : Fin 8192, x0 (ix2 b k) * x2 (ix2 r k)) := by
  have e : (k1_pay1 (F := Ideal) x0 x1 x2 (ix2 b r) : EReal)
      = ((((IntOp.ori
          (Ideal.cmp .oge (matmul dot_S64x8192_S128x8192_S64x128_1_1_0_0_n_n none (shapeCast S64x8192 x0 shapeCasts_S64x8192_S64x8192)
              (truncf .bf16 x1 bitsLt_bf16_f32) (constant (F := Ideal) S64x128 .f32 0x00000000#32) (ix2 b r)) (Ideal.ofBits .f32 0x40800000#32))
          (Ideal.cmp .oge (matmul dot_S64x8192_S128x8192_S64x128_1_1_0_0_n_n none (shapeCast S64x8192 x0 shapeCasts_S64x8192_S64x8192)
              (truncf .bf16 x2 bitsLt_bf16_f32) (constant (F := Ideal) S64x128 .f32 0x00000000#32) (ix2 b r)) (Ideal.ofBits .f32 0x40800000#32))).setWidth 32).toInt : ℝ) : EReal) := rfl
  rw [e, bit_of_widen, rows_8192_128, rows_8192_128, shapeCast_self]
  rfl

/-- The tile's scores, second layer. -/
theorem tile1 (x0 : FVec Ideal S64x8192 .bf16) (x1 x2 : FVec Ideal S128x8192 .f32) (x3 : FVec Ideal S128x100 .f32)
    (b : Fin 64) (c : Fin 100) :
    (k1_pay2 (F := Ideal) x0 x1 x2 x3 (ix3 (0 : Fin 1) b c) : EReal)
      = ∑ r : Fin 128, (k1_pay1 (F := Ideal) x0 x1 x2 (ix2 b r) : EReal) * (x3 (ix2 r c) : EReal) := by
  unfold k1_pay2
  refine (shapeCast_addUnit_apply ![64, 100] _ shapeCasts_S64x100_S1x64x100 (ix3 (0 : Fin 1) b c)).trans ?_
  rw [tail_ix3]
  exact cols_128 _ _ b c

/-! ## The third layer (the same computation on its own arguments) -/

/-- The tile's outputs, third layer. -/
theorem fired2 (x0 : FVec Ideal S64x8192 .bf16) (x1 x2 : FVec Ideal S128x8192 .f32) (b : Fin 64) (r : Fin 128) :
    (k2_pay1 (F := Ideal) x0 x1 x2 (ix2 b r) : EReal)
      = fire (∑ k : Fin 8192, x0 (ix2 b k) * x1 (ix2 r k)) (∑ k : Fin 8192, x0 (ix2 b k) * x2 (ix2 r k)) := by
  have e : (k2_pay1 (F := Ideal) x0 x1 x2 (ix2 b r) : EReal)
      = ((((IntOp.ori
          (Ideal.cmp .oge (matmul dot_S64x8192_S128x8192_S64x128_1_1_0_0_n_n none (shapeCast S64x8192 x0 shapeCasts_S64x8192_S64x8192)
              (truncf .bf16 x1 bitsLt_bf16_f32) (constant (F := Ideal) S64x128 .f32 0x00000000#32) (ix2 b r)) (Ideal.ofBits .f32 0x40800000#32))
          (Ideal.cmp .oge (matmul dot_S64x8192_S128x8192_S64x128_1_1_0_0_n_n none (shapeCast S64x8192 x0 shapeCasts_S64x8192_S64x8192)
              (truncf .bf16 x2 bitsLt_bf16_f32) (constant (F := Ideal) S64x128 .f32 0x00000000#32) (ix2 b r)) (Ideal.ofBits .f32 0x40800000#32))).setWidth 32).toInt : ℝ) : EReal) := rfl
  rw [e, bit_of_widen, rows_8192_128, rows_8192_128, shapeCast_self]
  rfl

/-- The tile's scores, third layer. -/
theorem tile2 (x0 : FVec Ideal S64x8192 .bf16) (x1 x2 : FVec Ideal S128x8192 .f32) (x3 : FVec Ideal S128x100 .f32)
    (b : Fin 64) (c : Fin 100) :
    (k2_pay2 (F := Ideal) x0 x1 x2 x3 (ix3 (0 : Fin 1) b c) : EReal)
      = ∑ r : Fin 128, (k2_pay1 (F := Ideal) x0 x1 x2 (ix2 b r) : EReal) * (x3 (ix2 r c) : EReal) := by
  unfold k2_pay2
  refine (shapeCast_addUnit_apply ![64, 100] _ shapeCasts_S64x100_S1x64x100 (ix3 (0 : Fin 1) b c)).trans ?_
  rw [tail_ix3]
  exact cols_128 _ _ b c

end Cert.KernelIdeal.Bodies

end
-- ==== Proof.Layer0.lean ====
/-
  The first layer's two result arrays after its tiled computation, as functions of the arrays the layer finds.

  The layer is computed in 16 steps; step t reads the whole input, rows 512t … 512t + 511 of the two synapse
  matrices and of the output strengths, and writes columns 512t … 512t + 511 of the outputs and slab t of the per-tile
  scores. The activations are the input's bits. Each step writes a block of ONE whole-array function — the layer's
  outputs, resp. its scores tile by tile — and the blocks cover the arrays: after the last step the arrays are those
  functions.
-/
import proofs.«169855_j90048284328142_2_alg».proof.Proof.Gen.KernelIdeal.Frame
import proofs.«169855_j90048284328142_2_alg».proof.Proof.Bodies
import Idealize.ShloMosaic.Lib.Pipeline.Value

noncomputable section

namespace Cert.KernelIdeal.Layer0

open Cert.KernelIdeal Cert.KernelIdeal.Gen Cert.KernelIdeal.Bodies Cert.SegmentNet
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at step t: the activations whole, the three tiled inputs at row block t, the
    outputs at column block t, the scores at slab t. -/
theorem idx : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 16 := lt_of_lt_of_eq t.isLt N_0

/-- The step as a tile number. -/
def tileOf (t : Fin cfg0.N) : Fin 16 := ⟨t.val, t_lt t⟩

theorem row_lt (t : Fin cfg0.N) (r : Fin 512) : t.val * 512 + r.val < 8192 := by
  have := t_lt t; have := r.isLt; omega

/-! ## The input blocks, read off the arrays -/

theorem read_0 (c : Dev nD) (t : Fin cfg0.N) (b : Fin 64) (k : Fin 2048) :
    (iblk0 V c 0 t : Vec Ideal S64x2048 .f32) (ix2 b k) = (V c main_arg0 : S64x2048.Idx → Elt Ideal .f32) (ix2 b k) := by
  obtain ⟨e00, e01, -⟩ := idx t
  unfold iblk0
  rw [View.read_apply]
  show V c main_arg0 _ = V c main_arg0 _
  refine congrArg _ (funext fun a => Fin.ext ?_)
  match a with
  | ⟨0, _⟩ => show win0_0.index t (0 : Fin 2) * 64 + 1 * b.val = b.val; rw [e00]; omega
  | ⟨1, _⟩ => show win0_0.index t (1 : Fin 2) * 2048 + 1 * k.val = k.val; rw [e01]; omega

theorem read_1 (c : Dev nD) (t : Fin cfg0.N) (r : Fin 512) (k : Fin 2048) :
    (iblk0 V c 1 t : Vec Ideal S512x2048 .f32) (ix2 r k)
      = (V c main_arg1 : S8192x2048.Idx → Elt Ideal .f32) (ix2 ⟨t.val * 512 + r.val, row_lt t r⟩ k) := by
  obtain ⟨-, -, e10, e11, -⟩ := idx t
  unfold iblk0
  rw [View.read_apply]
  show V c main_arg1 _ = V c main_arg1 _
  refine congrArg _ (funext fun a => Fin.ext ?_)
  match a with
  | ⟨0, _⟩ => show win0_1.index t (0 : Fin 2) * 512 + 1 * r.val = t.val * 512 + r.val; rw [e10]; omega
  | ⟨1, _⟩ => show win0_1.index t (1 : Fin 2) * 2048 + 1 * k.val = k.val; rw [e11]; omega

theorem read_2 (c : Dev nD) (t : Fin cfg0.N) (r : Fin 512) (k : Fin 2048) :
    (iblk0 V c 2 t : Vec Ideal S512x2048 .f32) (ix2 r k)
      = (V c main_arg2 : S8192x2048.Idx → Elt Ideal .f32) (ix2 ⟨t.val * 512 + r.val, row_lt t r⟩ k) := by
  obtain ⟨-, -, -, -, e20, e21, -⟩ := idx t
  unfold iblk0
  rw [View.read_apply]
  show V c main_arg2 _ = V c main_arg2 _
  refine congrArg _ (funext fun a => Fin.ext ?_)
  match a with
  | ⟨0, _⟩ => show win0_2.index t (0 : Fin 2) * 512 + 1 * r.val = t.val * 512 + r.val; rw [e20]; omega
  | ⟨1, _⟩ => show win0_2.index t (1 : Fin 2) * 2048 + 1 * k.val = k.val; rw [e21]; omega

theorem read_3 (c : Dev nD) (t : Fin cfg0.N) (r : Fin 512) (cc : Fin 100) :
    (iblk0 V c 3 t : Vec Ideal S512x100 .f32) (ix2 r cc)
      = (V c main_arg7 : S8192x100.Idx → Elt Ideal .f32) (ix2 ⟨t.val * 512 + r.val, row_lt t r⟩ cc) := by
  obtain ⟨-, -, -, -, -, -, e30, e31, -⟩ := idx t
  unfold iblk0
  rw [View.read_apply]
  show V c main_arg7 _ = V c main_arg7 _
  refine congrArg _ (funext fun a => Fin.ext ?_)
  match a with
  | ⟨0, _⟩ => show win0_3.index t (0 : Fin 2) * 512 + 1 * r.val = t.val * 512 + r.val; rw [e30]; omega
  | ⟨1, _⟩ => show win0_3.index t (1 : Fin 2) * 100 + 1 * cc.val = cc.val; rw [e31]; omega

/-! ## Where the output blocks sit -/

theorem emb_4 (t : Fin cfg0.N) (b : Fin 64) (r : Fin 512) :
    ((cfg0.win 4).blk t).view.emb (ix2 b r) = ix2 b ⟨t.val * 512 + r.val, row_lt t r⟩ := by
  obtain ⟨-, -, -, -, -, -, -, -, e40, e41, -⟩ := idx t
  refine funext fun a => Fin.ext ?_
  match a with
  | ⟨0, _⟩ => show win0_4.index t (0 : Fin 2) * 64 + 1 * b.val = b.val; rw [e40]; omega
  | ⟨1, _⟩ => show win0_4.index t (1 : Fin 2) * 512 + 1 * r.val = t.val * 512 + r.val; rw [e41]; omega

theorem emb_5 (t : Fin cfg0.N) (b : Fin 64) (cc : Fin 100) :
    ((cfg0.win 5).blk t).view.emb (ix3 (0 : Fin 1) b cc) = ix3 (tileOf t) b cc := by
  obtain ⟨-, -, -, -, -, -, -, -, -, -, e50, e51, e52⟩ := idx t
  refine funext fun a => Fin.ext ?_
  match a with
  | ⟨0, _⟩ => show win0_5.index t (0 : Fin 3) * 1 + 1 * 0 = t.val; rw [e50]; omega
  | ⟨1, _⟩ => show win0_5.index t (1 : Fin 3) * 64 + 1 * b.val = b.val; rw [e51]; omega
  | ⟨2, _⟩ => show win0_5.index t (2 : Fin 3) * 100 + 1 * cc.val = cc.val; rw [e52]; omega

/-! ## What a step writes -/

/-- Entry (b, r) of step t's outputs is neuron 128t + r's output on batch row b. -/
theorem entry (c : Dev nD) (t : Fin cfg0.N) (b : Fin 64) (r : Fin 512) :
    (k0_pay1 (F := Ideal) (iblk0 V c 0 t) (iblk0 V c 1 t) (iblk0 V c 2 t) (ix2 b r) : EReal)
      = layer (inBits (V c main_arg0)) (V c main_arg1) (V c main_arg2) (ix2 b ⟨t.val * 512 + r.val, row_lt t r⟩) := by
  refine (fired0 (iblk0 V c 0 t) (iblk0 V c 1 t) (iblk0 V c 2 t) b r).trans ?_
  rw [layer_ix2]
  unfold layerAt seg inBits
  refine congrArg₂ fire (Finset.sum_congr rfl fun k _ => ?_) (Finset.sum_congr rfl fun k _ => ?_)
  · rw [read_0 V c t b k, read_1 V c t r k]
  · rw [read_0 V c t b k, read_2 V c t r k]

/-- Step t writes block t of the layer's outputs. -/
theorem flushed_4 (c : Dev nD) (t : Fin cfg0.N) :
    (dat0 V c).flushed 4 t
      = ((cfg0.win 4).blk t).view.read (Elt Ideal) (layer (inBits (V c main_arg0)) (V c main_arg1) (V c main_arg2)) := by
  show (cfg0.win 4).cut (grid0.coords t) ((dat0 V c).after 4 t) = _
  rw [after0_4]
  unfold out0_4
  rw [View.canon_unit_zero hz2]
  simp only [View.ld_unit_zero (S := S64x2048) hz2, View.ld_unit_zero (S := S512x2048) hz2]
  funext j
  obtain ⟨b, r, rfl⟩ : ∃ (b : Fin 64) (r : Fin 512), j = ix2 b r := ⟨j 0, j 1, eq_ix2 j⟩
  show (k0_pay1 (F := Ideal) (iblk0 V c 0 t) (iblk0 V c 1 t) (iblk0 V c 2 t) (ix2 b r) : EReal)
    = layer (inBits (V c main_arg0)) (V c main_arg1) (V c main_arg2) (((cfg0.win 4).blk t).view.emb (ix2 b r))
  rw [emb_4]
  exact entry V c t b r

/-- Step t writes slab t of the layer's scores tile by tile. -/
theorem flushed_5 (c : Dev nD) (t : Fin cfg0.N) :
    (dat0 V c).flushed 5 t
      = ((cfg0.win 5).blk t).view.read (Elt Ideal)
          (tiles512 (layer (inBits (V c main_arg0)) (V c main_arg1) (V c main_arg2)) (V c main_arg7)) := by
  show (cfg0.win 5).cut (grid0.coords t) ((dat0 V c).after 5 t) = _
  rw [after0_5]
  unfold out0_5
  rw [View.canon_unit_zero hz3]
  simp only [View.ld_unit_zero (S := S64x2048) hz2, View.ld_unit_zero (S := S512x2048) hz2, View.ld_unit_zero (S := S512x100) hz2]
  funext j
  obtain ⟨z, b, cc, rfl⟩ : ∃ (z : Fin 1) (b : Fin 64) (cc : Fin 100), j = ix3 z b cc := ⟨j 0, j 1, j 2, eq_ix3 j⟩
  obtain rfl : z = 0 := Subsingleton.elim _ _
  show (k0_pay2 (F := Ideal) (iblk0 V c 0 t) (iblk0 V c 1 t) (iblk0 V c 2 t) (iblk0 V c 3 t) (ix3 (0 : Fin 1) b cc) : EReal)
    = tiles512 (layer (inBits (V c main_arg0)) (V c main_arg1) (V c main_arg2)) (V c main_arg7) (((cfg0.win 5).blk t).view.emb (ix3 (0 : Fin 1) b cc))
  rw [emb_5, tiles512_ix3]
  refine (tile0 (iblk0 V c 0 t) (iblk0 V c 1 t) (iblk0 V c 2 t) (iblk0 V c 3 t) b cc).trans ?_
  unfold tileScore512
  refine Finset.sum_congr rfl fun r _ => ?_
  rw [entry V c t b r, read_3 V c t r cc]
  rfl

/-! ## The blocks cover the arrays -/

theorem mem_blk_4 (t : Fin cfg0.N) (i : S64x8192.Idx) :
    i ∈ ((cfg0.win 4).blk t).view.set ↔ ∀ a : Fin 2, win0_4.index t a * S64x512.size a ≤ (i a).val ∧ (i a).val < win0_4.index t a * S64x512.size a + S64x512.size a := by
  show i ∈ ((View.whole main_v0_0).slice (win0_4.rect t)).set ↔ _
  rw [View.set_slice_whole, Rect.mem_set_unit]
  exact Iff.rfl

theorem mem_blk_5 (t : Fin cfg0.N) (i : S16x64x100.Idx) :
    i ∈ ((cfg0.win 5).blk t).view.set ↔ ∀ a : Fin 3, win0_5.index t a * S1x64x100.size a ≤ (i a).val ∧ (i a).val < win0_5.index t a * S1x64x100.size a + S1x64x100.size a := by
  show i ∈ ((View.whole main_v0_1).slice (win0_5.rect t)).set ↔ _
  rw [View.set_slice_whole, Rect.mem_set_unit]
  exact Iff.rfl

/-- Column h of the outputs is written at step h / 512. -/
theorem cover_4 (i : S64x8192.Idx) : ∃ t : Fin cfg0.N, (cfg0.win 4).flush t = true ∧ i ∈ ((cfg0.win 4).blk t).view.set := by
  have h0 : (i 0).val < 64 := (i 0).isLt
  have h1 : (i 1).val < 8192 := (i 1).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, -, -, -, e40, e41, -⟩ := idx t
  refine ⟨t, flush0_4 t, ?_⟩
  rw [mem_blk_4]
  intro a
  match a with
  | ⟨0, _⟩ => show win0_4.index t (0 : Fin 2) * 64 ≤ (i 0).val ∧ (i 0).val < win0_4.index t (0 : Fin 2) * 64 + 64; rw [e40]; omega
  | ⟨1, _⟩ => show win0_4.index t (1 : Fin 2) * 512 ≤ (i 1).val ∧ (i 1).val < win0_4.index t (1 : Fin 2) * 512 + 512; rw [e41]; omega

/-- Slab s of the scores is written at step s. -/
theorem cover_5 (i : S16x64x100.Idx) : ∃ t : Fin cfg0.N, (cfg0.win 5).flush t = true ∧ i ∈ ((cfg0.win 5).blk t).view.set := by
  have h0 : (i 0).val < 16 := (i 0).isLt
  have h1 : (i 1).val < 64 := (i 1).isLt
  have h2 : (i 2).val < 100 := (i 2).isLt
  have hN : cfg0.N = 16 := N_0
  obtain ⟨t, ht⟩ : ∃ t : Fin cfg0.N, t.val = (i 0).val := ⟨⟨(i 0).val, by rw [hN]; omega⟩, rfl⟩
  obtain ⟨-, -, -, -, -, -, -, -, -, -, e50, e51, e52⟩ := idx t
  refine ⟨t, flush0_5 t, ?_⟩
  rw [mem_blk_5]
  intro a
  match a with
  | ⟨0, _⟩ => show win0_5.index t (0 : Fin 3) * 1 ≤ (i 0).val ∧ (i 0).val < win0_5.index t (0 : Fin 3) * 1 + 1; rw [e50]; omega
  | ⟨1, _⟩ => show win0_5.index t (1 : Fin 3) * 64 ≤ (i 1).val ∧ (i 1).val < win0_5.index t (1 : Fin 3) * 64 + 64; rw [e51]; omega
  | ⟨2, _⟩ => show win0_5.index t (2 : Fin 3) * 100 ≤ (i 2).val ∧ (i 2).val < win0_5.index t (2 : Fin 3) * 100 + 100; rw [e52]; omega

/-! ## The arrays after the last step -/

/-- The outputs array ends at the layer's outputs. -/
theorem final_4 (c : Dev nD) :
    (dat0 V c).arrAt 4 cfg0.N = layer (inBits (V c main_arg0)) (V c main_arg1) (V c main_arg2) :=
  (dat0 V c).arrAt_eq_of_cover 4 _ (fun t _ => flushed_4 V c t) cover_4

/-- The scores array ends at the layer's scores tile by tile. -/
theorem final_5 (c : Dev nD) :
    (dat0 V c).arrAt 5 cfg0.N = tiles512 (layer (inBits (V c main_arg0)) (V c main_arg1) (V c main_arg2)) (V c main_arg7) :=
  (dat0 V c).arrAt_eq_of_cover 5 _ (fun t _ => flushed_5 V c t) cover_5

end Cert.KernelIdeal.Layer0

end
-- ==== Proof.Layer1.lean ====
/-
  The second layer's two result arrays after its tiled computation, as functions of the arrays the layer finds.

  The layer is computed in 64 steps; step t reads the whole activations, rows 128t … 128t + 127 of the two synapse
  matrices and of the output strengths, and writes columns 128t … 128t + 127 of the outputs and slab t of the per-tile
  scores. So each step writes a block of ONE whole-array function — the layer's outputs, resp. its scores tile by
  tile — and the blocks cover the arrays: after the last step the arrays are those functions.
-/
import proofs.«169855_j90048284328142_2_alg».proof.Proof.Gen.KernelIdeal.Frame
import proofs.«169855_j90048284328142_2_alg».proof.Proof.Bodies
import Idealize.ShloMosaic.Lib.Pipeline.Value

noncomputable section

namespace Cert.KernelIdeal.Layer1

open Cert.KernelIdeal Cert.KernelIdeal.Gen Cert.KernelIdeal.Bodies Cert.SegmentNet
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at step t: the activations whole, the three tiled inputs at row block t, the
    outputs at column block t, the scores at slab t. -/
theorem idx : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 3) = t.val ∧ win1_5.index t (1 : Fin 3) = 0 ∧ win1_5.index t (2 : Fin 3) = 0 :=
  (by decide +kernel : ∀ t : Fin grid1.N, _)

theorem t_lt (t : Fin cfg1.N) : t.val < 64 := lt_of_lt_of_eq t.isLt N_1

/-- The step as a tile number. -/
def tileOf (t : Fin cfg1.N) : Fin 64 := ⟨t.val, t_lt t⟩

theorem row_lt (t : Fin cfg1.N) (r : Fin 128) : t.val * 128 + r.val < 8192 := by
  have := t_lt t; have := r.isLt; omega

/-! ## The input blocks, read off the arrays -/

theorem read_0 (c : Dev nD) (t : Fin cfg1.N) (b : Fin 64) (k : Fin 8192) :
    (iblk1 V c 0 t : Vec Ideal S64x8192 .bf16) (ix2 b k) = (V c main_v0_0 : S64x8192.Idx → Elt Ideal .bf16) (ix2 b k) := by
  obtain ⟨e00, e01, -⟩ := idx t
  unfold iblk1
  rw [View.read_apply]
  show V c main_v0_0 _ = V c main_v0_0 _
  refine congrArg _ (funext fun a => Fin.ext ?_)
  match a with
  | ⟨0, _⟩ => show win1_0.index t (0 : Fin 2) * 64 + 1 * b.val = b.val; rw [e00]; omega
  | ⟨1, _⟩ => show win1_0.index t (1 : Fin 2) * 8192 + 1 * k.val = k.val; rw [e01]; omega

theorem read_1 (c : Dev nD) (t : Fin cfg1.N) (r : Fin 128) (k : Fin 8192) :
    (iblk1 V c 1 t : Vec Ideal S128x8192 .f32) (ix2 r k)
      = (V c main_arg3 : S8192x8192.Idx → Elt Ideal .f32) (ix2 ⟨t.val * 128 + r.val, row_lt t r⟩ k) := by
  obtain ⟨-, -, e10, e11, -⟩ := idx t
  unfold iblk1
  rw [View.read_apply]
  show V c main_arg3 _ = V c main_arg3 _
  refine congrArg _ (funext fun a => Fin.ext ?_)
  match a with
  | ⟨0, _⟩ => show win1_1.index t (0 : Fin 2) * 128 + 1 * r.val = t.val * 128 + r.val; rw [e10]; omega
  | ⟨1, _⟩ => show win1_1.index t (1 : Fin 2) * 8192 + 1 * k.val = k.val; rw [e11]; omega

theorem read_2 (c : Dev nD) (t : Fin cfg1.N) (r : Fin 128) (k : Fin 8192) :
    (iblk1 V c 2 t : Vec Ideal S128x8192 .f32) (ix2 r k)
      = (V c main_arg4 : S8192x8192.Idx → Elt Ideal .f32) (ix2 ⟨t.val * 128 + r.val, row_lt t r⟩ k) := by
  obtain ⟨-, -, -, -, e20, e21, -⟩ := idx t
  unfold iblk1
  rw [View.read_apply]
  show V c main_arg4 _ = V c main_arg4 _
  refine congrArg _ (funext fun a => Fin.ext ?_)
  match a with
  | ⟨0, _⟩ => show win1_2.index t (0 : Fin 2) * 128 + 1 * r.val = t.val * 128 + r.val; rw [e20]; omega
  | ⟨1, _⟩ => show win1_2.index t (1 : Fin 2) * 8192 + 1 * k.val = k.val; rw [e21]; omega

theorem read_3 (c : Dev nD) (t : Fin cfg1.N) (r : Fin 128) (cc : Fin 100) :
    (iblk1 V c 3 t : Vec Ideal S128x100 .f32) (ix2 r cc)
      = (V c main_arg8 : S8192x100.Idx → Elt Ideal .f32) (ix2 ⟨t.val * 128 + r.val, row_lt t r⟩ cc) := by
  obtain ⟨-, -, -, -, -, -, e30, e31, -⟩ := idx t
  unfold iblk1
  rw [View.read_apply]
  show V c main_arg8 _ = V c main_arg8 _
  refine congrArg _ (funext fun a => Fin.ext ?_)
  match a with
  | ⟨0, _⟩ => show win1_3.index t (0 : Fin 2) * 128 + 1 * r.val = t.val * 128 + r.val; rw [e30]; omega
  | ⟨1, _⟩ => show win1_3.index t (1 : Fin 2) * 100 + 1 * cc.val = cc.val; rw [e31]; omega

/-! ## Where the output blocks sit -/

theorem emb_4 (t : Fin cfg1.N) (b : Fin 64) (r : Fin 128) :
    ((cfg1.win 4).blk t).view.emb (ix2 b r) = ix2 b ⟨t.val * 128 + r.val, row_lt t r⟩ := by
  obtain ⟨-, -, -, -, -, -, -, -, e40, e41, -⟩ := idx t
  refine funext fun a => Fin.ext ?_
  match a with
  | ⟨0, _⟩ => show win1_4.index t (0 : Fin 2) * 64 + 1 * b.val = b.val; rw [e40]; omega
  | ⟨1, _⟩ => show win1_4.index t (1 : Fin 2) * 128 + 1 * r.val = t.val * 128 + r.val; rw [e41]; omega

theorem emb_5 (t : Fin cfg1.N) (b : Fin 64) (cc : Fin 100) :
    ((cfg1.win 5).blk t).view.emb (ix3 (0 : Fin 1) b cc) = ix3 (tileOf t) b cc := by
  obtain ⟨-, -, -, -, -, -, -, -, -, -, e50, e51, e52⟩ := idx t
  refine funext fun a => Fin.ext ?_
  match a with
  | ⟨0, _⟩ => show win1_5.index t (0 : Fin 3) * 1 + 1 * 0 = t.val; rw [e50]; omega
  | ⟨1, _⟩ => show win1_5.index t (1 : Fin 3) * 64 + 1 * b.val = b.val; rw [e51]; omega
  | ⟨2, _⟩ => show win1_5.index t (2 : Fin 3) * 100 + 1 * cc.val = cc.val; rw [e52]; omega

/-! ## What a step writes -/

/-- Entry (b, r) of step t's outputs is neuron 128t + r's output on batch row b. -/
theorem entry (c : Dev nD) (t : Fin cfg1.N) (b : Fin 64) (r : Fin 128) :
    (k1_pay1 (F := Ideal) (iblk1 V c 0 t) (iblk1 V c 1 t) (iblk1 V c 2 t) (ix2 b r) : EReal)
      = layer (V c main_v0_0) (V c main_arg3) (V c main_arg4) (ix2 b ⟨t.val * 128 + r.val, row_lt t r⟩) := by
  refine (fired1 (iblk1 V c 0 t) (iblk1 V c 1 t) (iblk1 V c 2 t) b r).trans ?_
  rw [layer_ix2]
  unfold layerAt seg
  refine congrArg₂ fire (Finset.sum_congr rfl fun k _ => ?_) (Finset.sum_congr rfl fun k _ => ?_)
  · rw [read_0 V c t b k, read_1 V c t r k]
  · rw [read_0 V c t b k, read_2 V c t r k]

/-- Step t writes block t of the layer's outputs. -/
theorem flushed_4 (c : Dev nD) (t : Fin cfg1.N) :
    (dat1 V c).flushed 4 t
      = ((cfg1.win 4).blk t).view.read (Elt Ideal) (layer (V c main_v0_0) (V c main_arg3) (V c main_arg4)) := by
  show (cfg1.win 4).cut (grid1.coords t) ((dat1 V c).after 4 t) = _
  rw [after1_4]
  unfold out1_4
  rw [View.canon_unit_zero hz2]
  simp only [View.ld_unit_zero (S := S64x8192) hz2, View.ld_unit_zero (S := S128x8192) hz2]
  funext j
  obtain ⟨b, r, rfl⟩ : ∃ (b : Fin 64) (r : Fin 128), j = ix2 b r := ⟨j 0, j 1, eq_ix2 j⟩
  show (k1_pay1 (F := Ideal) (iblk1 V c 0 t) (iblk1 V c 1 t) (iblk1 V c 2 t) (ix2 b r) : EReal)
    = layer (V c main_v0_0) (V c main_arg3) (V c main_arg4) (((cfg1.win 4).blk t).view.emb (ix2 b r))
  rw [emb_4]
  exact entry V c t b r

/-- Step t writes slab t of the layer's scores tile by tile. -/
theorem flushed_5 (c : Dev nD) (t : Fin cfg1.N) :
    (dat1 V c).flushed 5 t
      = ((cfg1.win 5).blk t).view.read (Elt Ideal)
          (tiles128 (layer (V c main_v0_0) (V c main_arg3) (V c main_arg4)) (V c main_arg8)) := by
  show (cfg1.win 5).cut (grid1.coords t) ((dat1 V c).after 5 t) = _
  rw [after1_5]
  unfold out1_5
  rw [View.canon_unit_zero hz3]
  simp only [View.ld_unit_zero (S := S64x8192) hz2, View.ld_unit_zero (S := S128x8192) hz2, View.ld_unit_zero (S := S128x100) hz2]
  funext j
  obtain ⟨z, b, cc, rfl⟩ : ∃ (z : Fin 1) (b : Fin 64) (cc : Fin 100), j = ix3 z b cc := ⟨j 0, j 1, j 2, eq_ix3 j⟩
  obtain rfl : z = 0 := Subsingleton.elim _ _
  show (k1_pay2 (F := Ideal) (iblk1 V c 0 t) (iblk1 V c 1 t) (iblk1 V c 2 t) (iblk1 V c 3 t) (ix3 (0 : Fin 1) b cc) : EReal)
    = tiles128 (layer (V c main_v0_0) (V c main_arg3) (V c main_arg4)) (V c main_arg8) (((cfg1.win 5).blk t).view.emb (ix3 (0 : Fin 1) b cc))
  rw [emb_5, tiles128_ix3]
  refine (tile1 (iblk1 V c 0 t) (iblk1 V c 1 t) (iblk1 V c 2 t) (iblk1 V c 3 t) b cc).trans ?_
  unfold tileScore128
  refine Finset.sum_congr rfl fun r _ => ?_
  rw [entry V c t b r, read_3 V c t r cc]
  rfl

/-! ## The blocks cover the arrays -/

theorem mem_blk_4 (t : Fin cfg1.N) (i : S64x8192.Idx) :
    i ∈ ((cfg1.win 4).blk t).view.set ↔ ∀ a : Fin 2, win1_4.index t a * S64x128.size a ≤ (i a).val ∧ (i a).val < win1_4.index t a * S64x128.size a + S64x128.size a := by
  show i ∈ ((View.whole main_v1_0).slice (win1_4.rect t)).set ↔ _
  rw [View.set_slice_whole, Rect.mem_set_unit]
  exact Iff.rfl

theorem mem_blk_5 (t : Fin cfg1.N) (i : S64x64x100.Idx) :
    i ∈ ((cfg1.win 5).blk t).view.set ↔ ∀ a : Fin 3, win1_5.index t a * S1x64x100.size a ≤ (i a).val ∧ (i a).val < win1_5.index t a * S1x64x100.size a + S1x64x100.size a := by
  show i ∈ ((View.whole main_v1_1).slice (win1_5.rect t)).set ↔ _
  rw [View.set_slice_whole, Rect.mem_set_unit]
  exact Iff.rfl

/-- Column h of the outputs is written at step h / 128. -/
theorem cover_4 (i : S64x8192.Idx) : ∃ t : Fin cfg1.N, (cfg1.win 4).flush t = true ∧ i ∈ ((cfg1.win 4).blk t).view.set := by
  have h0 : (i 0).val < 64 := (i 0).isLt
  have h1 : (i 1).val < 8192 := (i 1).isLt
  have hN : cfg1.N = 64 := N_1
  obtain ⟨t, ht⟩ : ∃ t : Fin cfg1.N, t.val = (i 1).val / 128 := ⟨⟨(i 1).val / 128, by rw [hN]; omega⟩, rfl⟩
  obtain ⟨-, -, -, -, -, -, -, -, e40, e41, -⟩ := idx t
  refine ⟨t, flush1_4 t, ?_⟩
  rw [mem_blk_4]
  intro a
  match a with
  | ⟨0, _⟩ => show win1_4.index t (0 : Fin 2) * 64 ≤ (i 0).val ∧ (i 0).val < win1_4.index t (0 : Fin 2) * 64 + 64; rw [e40]; omega
  | ⟨1, _⟩ => show win1_4.index t (1 : Fin 2) * 128 ≤ (i 1).val ∧ (i 1).val < win1_4.index t (1 : Fin 2) * 128 + 128; rw [e41]; omega

/-- Slab s of the scores is written at step s. -/
theorem cover_5 (i : S64x64x100.Idx) : ∃ t : Fin cfg1.N, (cfg1.win 5).flush t = true ∧ i ∈ ((cfg1.win 5).blk t).view.set := by
  have h0 : (i 0).val < 64 := (i 0).isLt
  have h1 : (i 1).val < 64 := (i 1).isLt
  have h2 : (i 2).val < 100 := (i 2).isLt
  have hN : cfg1.N = 64 := N_1
  obtain ⟨t, ht⟩ : ∃ t : Fin cfg1.N, t.val = (i 0).val := ⟨⟨(i 0).val, by rw [hN]; omega⟩, rfl⟩
  obtain ⟨-, -, -, -, -, -, -, -, -, -, e50, e51, e52⟩ := idx t
  refine ⟨t, flush1_5 t, ?_⟩
  rw [mem_blk_5]
  intro a
  match a with
  | ⟨0, _⟩ => show win1_5.index t (0 : Fin 3) * 1 ≤ (i 0).val ∧ (i 0).val < win1_5.index t (0 : Fin 3) * 1 + 1; rw [e50]; omega
  | ⟨1, _⟩ => show win1_5.index t (1 : Fin 3) * 64 ≤ (i 1).val ∧ (i 1).val < win1_5.index t (1 : Fin 3) * 64 + 64; rw [e51]; omega
  | ⟨2, _⟩ => show win1_5.index t (2 : Fin 3) * 100 ≤ (i 2).val ∧ (i 2).val < win1_5.index t (2 : Fin 3) * 100 + 100; rw [e52]; omega

/-! ## The arrays after the last step -/

/-- The outputs array ends at the layer's outputs. -/
theorem final_4 (c : Dev nD) :
    (dat1 V c).arrAt 4 cfg1.N = layer (V c main_v0_0) (V c main_arg3) (V c main_arg4) :=
  (dat1 V c).arrAt_eq_of_cover 4 _ (fun t _ => flushed_4 V c t) cover_4

/-- The scores array ends at the layer's scores tile by tile. -/
theorem final_5 (c : Dev nD) :
    (dat1 V c).arrAt 5 cfg1.N = tiles128 (layer (V c main_v0_0) (V c main_arg3) (V c main_arg4)) (V c main_arg8) :=
  (dat1 V c).arrAt_eq_of_cover 5 _ (fun t _ => flushed_5 V c t) cover_5

end Cert.KernelIdeal.Layer1

end
-- ==== Proof.Layer2.lean ====
/-
  The third layer's two result arrays after its tiled computation, as functions of the arrays the layer finds.

  The layer is computed in 64 steps; step t reads the whole activations, rows 128t … 128t + 127 of the two synapse
  matrices and of the output strengths, and writes columns 128t … 128t + 127 of the outputs and slab t of the per-tile
  scores. So each step writes a block of ONE whole-array function — the layer's outputs, resp. its scores tile by
  tile — and the blocks cover the arrays: after the last step the arrays are those functions.
-/
import proofs.«169855_j90048284328142_2_alg».proof.Proof.Gen.KernelIdeal.Frame
import proofs.«169855_j90048284328142_2_alg».proof.Proof.Bodies
import Idealize.ShloMosaic.Lib.Pipeline.Value

noncomputable section

namespace Cert.KernelIdeal.Layer2

open Cert.KernelIdeal Cert.KernelIdeal.Gen Cert.KernelIdeal.Bodies Cert.SegmentNet
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Where each window's block sits at step t: the activations whole, the three tiled inputs at row block t, the
    outputs at column block t, the scores at slab t. -/
theorem idx : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = t.val
    ∧ win2_5.index t (0 : Fin 3) = t.val ∧ win2_5.index t (1 : Fin 3) = 0 ∧ win2_5.index t (2 : Fin 3) = 0 :=
  (by decide +kernel : ∀ t : Fin grid2.N, _)

theorem t_lt (t : Fin cfg2.N) : t.val < 64 := lt_of_lt_of_eq t.isLt N_2

/-- The step as a tile number. -/
def tileOf (t : Fin cfg2.N) : Fin 64 := ⟨t.val, t_lt t⟩

theorem row_lt (t : Fin cfg2.N) (r : Fin 128) : t.val * 128 + r.val < 8192 := by
  have := t_lt t; have := r.isLt; omega

/-! ## The input blocks, read off the arrays -/

theorem read_0 (c : Dev nD) (t : Fin cfg2.N) (b : Fin 64) (k : Fin 8192) :
    (iblk2 V c 0 t : Vec Ideal S64x8192 .bf16) (ix2 b k) = (V c main_v1_0 : S64x8192.Idx → Elt Ideal .bf16) (ix2 b k) := by
  obtain ⟨e00, e01, -⟩ := idx t
  unfold iblk2
  rw [View.read_apply]
  show V c main_v1_0 _ = V c main_v1_0 _
  refine congrArg _ (funext fun a => Fin.ext ?_)
  match a with
  | ⟨0, _⟩ => show win2_0.index t (0 : Fin 2) * 64 + 1 * b.val = b.val; rw [e00]; omega
  | ⟨1, _⟩ => show win2_0.index t (1 : Fin 2) * 8192 + 1 * k.val = k.val; rw [e01]; omega

theorem read_1 (c : Dev nD) (t : Fin cfg2.N) (r : Fin 128) (k : Fin 8192) :
    (iblk2 V c 1 t : Vec Ideal S128x8192 .f32) (ix2 r k)
      = (V c main_arg5 : S8192x8192.Idx → Elt Ideal .f32) (ix2 ⟨t.val * 128 + r.val, row_lt t r⟩ k) := by
  obtain ⟨-, -, e10, e11, -⟩ := idx t
  unfold iblk2
  rw [View.read_apply]
  show V c main_arg5 _ = V c main_arg5 _
  refine congrArg _ (funext fun a => Fin.ext ?_)
  match a with
  | ⟨0, _⟩ => show win2_1.index t (0 : Fin 2) * 128 + 1 * r.val = t.val * 128 + r.val; rw [e10]; omega
  | ⟨1, _⟩ => show win2_1.index t (1 : Fin 2) * 8192 + 1 * k.val = k.val; rw [e11]; omega

theorem read_2 (c : Dev nD) (t : Fin cfg2.N) (r : Fin 128) (k : Fin 8192) :
    (iblk2 V c 2 t : Vec Ideal S128x8192 .f32) (ix2 r k)
      = (V c main_arg6 : S8192x8192.Idx → Elt Ideal .f32) (ix2 ⟨t.val * 128 + r.val, row_lt t r⟩ k) := by
  obtain ⟨-, -, -, -, e20, e21, -⟩ := idx t
  unfold iblk2
  rw [View.read_apply]
  show V c main_arg6 _ = V c main_arg6 _
  refine congrArg _ (funext fun a => Fin.ext ?_)
  match a with
  | ⟨0, _⟩ => show win2_2.index t (0 : Fin 2) * 128 + 1 * r.val = t.val * 128 + r.val; rw [e20]; omega
  | ⟨1, _⟩ => show win2_2.index t (1 : Fin 2) * 8192 + 1 * k.val = k.val; rw [e21]; omega

theorem read_3 (c : Dev nD) (t : Fin cfg2.N) (r : Fin 128) (cc : Fin 100) :
    (iblk2 V c 3 t : Vec Ideal S128x100 .f32) (ix2 r cc)
      = (V c main_arg9 : S8192x100.Idx → Elt Ideal .f32) (ix2 ⟨t.val * 128 + r.val, row_lt t r⟩ cc) := by
  obtain ⟨-, -, -, -, -, -, e30, e31, -⟩ := idx t
  unfold iblk2
  rw [View.read_apply]
  show V c main_arg9 _ = V c main_arg9 _
  refine congrArg _ (funext fun a => Fin.ext ?_)
  match a with
  | ⟨0, _⟩ => show win2_3.index t (0 : Fin 2) * 128 + 1 * r.val = t.val * 128 + r.val; rw [e30]; omega
  | ⟨1, _⟩ => show win2_3.index t (1 : Fin 2) * 100 + 1 * cc.val = cc.val; rw [e31]; omega

/-! ## Where the output blocks sit -/

theorem emb_4 (t : Fin cfg2.N) (b : Fin 64) (r : Fin 128) :
    ((cfg2.win 4).blk t).view.emb (ix2 b r) = ix2 b ⟨t.val * 128 + r.val, row_lt t r⟩ := by
  obtain ⟨-, -, -, -, -, -, -, -, e40, e41, -⟩ := idx t
  refine funext fun a => Fin.ext ?_
  match a with
  | ⟨0, _⟩ => show win2_4.index t (0 : Fin 2) * 64 + 1 * b.val = b.val; rw [e40]; omega
  | ⟨1, _⟩ => show win2_4.index t (1 : Fin 2) * 128 + 1 * r.val = t.val * 128 + r.val; rw [e41]; omega

theorem emb_5 (t : Fin cfg2.N) (b : Fin 64) (cc : Fin 100) :
    ((cfg2.win 5).blk t).view.emb (ix3 (0 : Fin 1) b cc) = ix3 (tileOf t) b cc := by
  obtain ⟨-, -, -, -, -, -, -, -, -, -, e50, e51, e52⟩ := idx t
  refine funext fun a => Fin.ext ?_
  match a with
  | ⟨0, _⟩ => show win2_5.index t (0 : Fin 3) * 1 + 1 * 0 = t.val; rw [e50]; omega
  | ⟨1, _⟩ => show win2_5.index t (1 : Fin 3) * 64 + 1 * b.val = b.val; rw [e51]; omega
  | ⟨2, _⟩ => show win2_5.index t (2 : Fin 3) * 100 + 1 * cc.val = cc.val; rw [e52]; omega

/-! ## What a step writes -/

/-- Entry (b, r) of step t's outputs is neuron 128t + r's output on batch row b. -/
theorem entry (c : Dev nD) (t : Fin cfg2.N) (b : Fin 64) (r : Fin 128) :
    (k2_pay1 (F := Ideal) (iblk2 V c 0 t) (iblk2 V c 1 t) (iblk2 V c 2 t) (ix2 b r) : EReal)
      = layer (V c main_v1_0) (V c main_arg5) (V c main_arg6) (ix2 b ⟨t.val * 128 + r.val, row_lt t r⟩) := by
  refine (fired2 (iblk2 V c 0 t) (iblk2 V c 1 t) (iblk2 V c 2 t) b r).trans ?_
  rw [layer_ix2]
  unfold layerAt seg
  refine congrArg₂ fire (Finset.sum_congr rfl fun k _ => ?_) (Finset.sum_congr rfl fun k _ => ?_)
  · rw [read_0 V c t b k, read_1 V c t r k]
  · rw [read_0 V c t b k, read_2 V c t r k]

/-- Step t writes block t of the layer's outputs. -/
theorem flushed_4 (c : Dev nD) (t : Fin cfg2.N) :
    (dat2 V c).flushed 4 t
      = ((cfg2.win 4).blk t).view.read (Elt Ideal) (layer (V c main_v1_0) (V c main_arg5) (V c main_arg6)) := by
  show (cfg2.win 4).cut (grid2.coords t) ((dat2 V c).after 4 t) = _
  rw [after2_4]
  unfold out2_4
  rw [View.canon_unit_zero hz2]
  simp only [View.ld_unit_zero (S := S64x8192) hz2, View.ld_unit_zero (S := S128x8192) hz2]
  funext j
  obtain ⟨b, r, rfl⟩ : ∃ (b : Fin 64) (r : Fin 128), j = ix2 b r := ⟨j 0, j 1, eq_ix2 j⟩
  show (k2_pay1 (F := Ideal) (iblk2 V c 0 t) (iblk2 V c 1 t) (iblk2 V c 2 t) (ix2 b r) : EReal)
    = layer (V c main_v1_0) (V c main_arg5) (V c main_arg6) (((cfg2.win 4).blk t).view.emb (ix2 b r))
  rw [emb_4]
  exact entry V c t b r

/-- Step t writes slab t of the layer's scores tile by tile. -/
theorem flushed_5 (c : Dev nD) (t : Fin cfg2.N) :
    (dat2 V c).flushed 5 t
      = ((cfg2.win 5).blk t).view.read (Elt Ideal)
          (tiles128 (layer (V c main_v1_0) (V c main_arg5) (V c main_arg6)) (V c main_arg9)) := by
  show (cfg2.win 5).cut (grid2.coords t) ((dat2 V c).after 5 t) = _
  rw [after2_5]
  unfold out2_5
  rw [View.canon_unit_zero hz3]
  simp only [View.ld_unit_zero (S := S64x8192) hz2, View.ld_unit_zero (S := S128x8192) hz2, View.ld_unit_zero (S := S128x100) hz2]
  funext j
  obtain ⟨z, b, cc, rfl⟩ : ∃ (z : Fin 1) (b : Fin 64) (cc : Fin 100), j = ix3 z b cc := ⟨j 0, j 1, j 2, eq_ix3 j⟩
  obtain rfl : z = 0 := Subsingleton.elim _ _
  show (k2_pay2 (F := Ideal) (iblk2 V c 0 t) (iblk2 V c 1 t) (iblk2 V c 2 t) (iblk2 V c 3 t) (ix3 (0 : Fin 1) b cc) : EReal)
    = tiles128 (layer (V c main_v1_0) (V c main_arg5) (V c main_arg6)) (V c main_arg9) (((cfg2.win 5).blk t).view.emb (ix3 (0 : Fin 1) b cc))
  rw [emb_5, tiles128_ix3]
  refine (tile2 (iblk2 V c 0 t) (iblk2 V c 1 t) (iblk2 V c 2 t) (iblk2 V c 3 t) b cc).trans ?_
  unfold tileScore128
  refine Finset.sum_congr rfl fun r _ => ?_
  rw [entry V c t b r, read_3 V c t r cc]
  rfl

/-! ## The blocks cover the arrays -/

theorem mem_blk_4 (t : Fin cfg2.N) (i : S64x8192.Idx) :
    i ∈ ((cfg2.win 4).blk t).view.set ↔ ∀ a : Fin 2, win2_4.index t a * S64x128.size a ≤ (i a).val ∧ (i a).val < win2_4.index t a * S64x128.size a + S64x128.size a := by
  show i ∈ ((View.whole main_v2_0).slice (win2_4.rect t)).set ↔ _
  rw [View.set_slice_whole, Rect.mem_set_unit]
  exact Iff.rfl

theorem mem_blk_5 (t : Fin cfg2.N) (i : S64x64x100.Idx) :
    i ∈ ((cfg2.win 5).blk t).view.set ↔ ∀ a : Fin 3, win2_5.index t a * S1x64x100.size a ≤ (i a).val ∧ (i a).val < win2_5.index t a * S1x64x100.size a + S1x64x100.size a := by
  show i ∈ ((View.whole main_v2_1).slice (win2_5.rect t)).set ↔ _
  rw [View.set_slice_whole, Rect.mem_set_unit]
  exact Iff.rfl

/-- Column h of the outputs is written at step h / 128. -/
theorem cover_4 (i : S64x8192.Idx) : ∃ t : Fin cfg2.N, (cfg2.win 4).flush t = true ∧ i ∈ ((cfg2.win 4).blk t).view.set := by
  have h0 : (i 0).val < 64 := (i 0).isLt
  have h1 : (i 1).val < 8192 := (i 1).isLt
  have hN : cfg2.N = 64 := N_2
  obtain ⟨t, ht⟩ : ∃ t : Fin cfg2.N, t.val = (i 1).val / 128 := ⟨⟨(i 1).val / 128, by rw [hN]; omega⟩, rfl⟩
  obtain ⟨-, -, -, -, -, -, -, -, e40, e41, -⟩ := idx t
  refine ⟨t, flush2_4 t, ?_⟩
  rw [mem_blk_4]
  intro a
  match a with
  | ⟨0, _⟩ => show win2_4.index t (0 : Fin 2) * 64 ≤ (i 0).val ∧ (i 0).val < win2_4.index t (0 : Fin 2) * 64 + 64; rw [e40]; omega
  | ⟨1, _⟩ => show win2_4.index t (1 : Fin 2) * 128 ≤ (i 1).val ∧ (i 1).val < win2_4.index t (1 : Fin 2) * 128 + 128; rw [e41]; omega

/-- Slab s of the scores is written at step s. -/
theorem cover_5 (i : S64x64x100.Idx) : ∃ t : Fin cfg2.N, (cfg2.win 5).flush t = true ∧ i ∈ ((cfg2.win 5).blk t).view.set := by
  have h0 : (i 0).val < 64 := (i 0).isLt
  have h1 : (i 1).val < 64 := (i 1).isLt
  have h2 : (i 2).val < 100 := (i 2).isLt
  have hN : cfg2.N = 64 := N_2
  obtain ⟨t, ht⟩ : ∃ t : Fin cfg2.N, t.val = (i 0).val := ⟨⟨(i 0).val, by rw [hN]; omega⟩, rfl⟩
  obtain ⟨-, -, -, -, -, -, -, -, -, -, e50, e51, e52⟩ := idx t
  refine ⟨t, flush2_5 t, ?_⟩
  rw [mem_blk_5]
  intro a
  match a with
  | ⟨0, _⟩ => show win2_5.index t (0 : Fin 3) * 1 ≤ (i 0).val ∧ (i 0).val < win2_5.index t (0 : Fin 3) * 1 + 1; rw [e50]; omega
  | ⟨1, _⟩ => show win2_5.index t (1 : Fin 3) * 64 ≤ (i 1).val ∧ (i 1).val < win2_5.index t (1 : Fin 3) * 64 + 64; rw [e51]; omega
  | ⟨2, _⟩ => show win2_5.index t (2 : Fin 3) * 100 ≤ (i 2).val ∧ (i 2).val < win2_5.index t (2 : Fin 3) * 100 + 100; rw [e52]; omega

/-! ## The arrays after the last step -/

/-- The outputs array ends at the layer's outputs. -/
theorem final_4 (c : Dev nD) :
    (dat2 V c).arrAt 4 cfg2.N = layer (V c main_v1_0) (V c main_arg5) (V c main_arg6) :=
  (dat2 V c).arrAt_eq_of_cover 4 _ (fun t _ => flushed_4 V c t) cover_4

/-- The scores array ends at the layer's scores tile by tile. -/
theorem final_5 (c : Dev nD) :
    (dat2 V c).arrAt 5 cfg2.N = tiles128 (layer (V c main_v1_0) (V c main_arg5) (V c main_arg6)) (V c main_arg9) :=
  (dat2 V c).arrAt_eq_of_cover 5 _ (fun t _ => flushed_5 V c t) cover_5

end Cert.KernelIdeal.Layer2

end
-- ==== Proof.Result.lean ====
/-
  The idealized kernel's result as the specification's class scores of the argument arrays.

  Each layer's outputs array is the specification's layer of what the layer finds: the first finds the arguments, the
  second the first's outputs, the third the second's. Each layer's scores array holds its scores tile by tile. The
  host sums each over the tile axis from zero — the sum of the tiles' scores, which is the layer's score over all
  neurons because a sum may be regrouped — and adds the three in the order the specification does.
-/
import proofs.«169855_j90048284328142_2_alg».proof.Proof.WholeRun
import proofs.«169855_j90048284328142_2_alg».proof.Proof.Layer0
import proofs.«169855_j90048284328142_2_alg».proof.Proof.Layer1
import proofs.«169855_j90048284328142_2_alg».proof.Proof.Layer2
import Idealize.ShloMosaic.PureOps.Ideal.Laws

noncomputable section

namespace Cert.KernelIdeal.Result

open Cert.KernelIdeal Cert.KernelIdeal.Gen Cert.KernelIdeal.Whole Cert.SegmentNet
open Idealize.ShloMosaic Idealize.ShloMosaic.TcCoe Idealize.SL.Sem Idealize.ShloMosaic.ValueIdx

/-! ## The host sums over the tile axis -/

/-- Sixteen tiles summed from zero. -/
theorem reduce16 (p : (⟨S16x64x100, .f32⟩ : BufTy).Contents (Elt Ideal)) (b : Fin 64) (c : Fin 100) :
    (Host.reduceAdd p (constant (F := Ideal) S_ .f32 0x00000000#32) reducesTo_S16x64x100_S64x100_d0 h_S_ : FVec Ideal S64x100 .f32) (ix2 b c)
      = ∑ t : Fin 16, p (ix3 t b c) := by
  unfold Host.reduceAdd
  rw [Ideal.hostReduceAdd_def, Ideal.hostReduceAdd_single reducesTo_S16x64x100_S64x100_d0 (by decide)]
  rw [constant_apply, Ideal.ofBits_zero_f32, zero_add]
  exact Finset.sum_congr rfl fun t _ => congrArg p (funext fun a => Fin.ext (by match a with | ⟨0, _⟩ => rfl | ⟨1, _⟩ => rfl | ⟨2, _⟩ => rfl))

/-- Sixty-four tiles summed from zero. -/
theorem reduce64 (p : (⟨S64x64x100, .f32⟩ : BufTy).Contents (Elt Ideal)) (b : Fin 64) (c : Fin 100) :
    (Host.reduceAdd p (constant (F := Ideal) S_ .f32 0x00000000#32) reducesTo_S64x64x100_S64x100_d0 h_S_ : FVec Ideal S64x100 .f32) (ix2 b c)
      = ∑ t : Fin 64, p (ix3 t b c) := by
  unfold Host.reduceAdd
  rw [Ideal.hostReduceAdd_def, Ideal.hostReduceAdd_single reducesTo_S64x64x100_S64x100_d0 (by decide)]
  rw [constant_apply, Ideal.ofBits_zero_f32, zero_add]
  exact Finset.sum_congr rfl fun t _ => congrArg p (funext fun a => Fin.ext (by match a with | ⟨0, _⟩ => rfl | ⟨1, _⟩ => rfl | ⟨2, _⟩ => rfl))

/-- The host operations on the three layers' per-tile scores give the three layers' scores, added in order. -/
theorem tail_scores (a1 a2 a3 : Arr2 64 8192) (o0 o1 o2 : Arr2 8192 100) (b : Fin 64) (c : Fin 100) :
    tail (F := Ideal) (tiles512 a1 o0) (tiles128 a2 o1) (tiles128 a3 o2) (ix2 b c)
      = (score a1 o0 b c + score a2 o1 b c) + score a3 o2 b c := by
  unfold tail
  rw [addf_apply, addf_apply, reduce16, reduce64, reduce64, score_tiles512, score_tiles128, score_tiles128]
  simp only [tiles512_ix3, tiles128_ix3]

/-! ## The layers' arrays, from the arguments -/

variable (m : (ℓ : Loc nD τ sig) → Buf (Elt Ideal) ℓ) (ρ : Dev nD → PrngReg)

theorem outputs1 (c : Dev nD) : (dat0 (V0 m ρ) c).arrAt 4 cfg0.N = act1 (m ((c.tc : Thread nD τ).loc main_arg0)) (m ((c.tc : Thread nD τ).loc main_arg1)) (m ((c.tc : Thread nD τ).loc main_arg2)) :=
  Layer0.final_4 (V0 m ρ) c

theorem scores1 (c : Dev nD) : (dat0 (V0 m ρ) c).arrAt 5 cfg0.N = tiles512 (act1 (m ((c.tc : Thread nD τ).loc main_arg0)) (m ((c.tc : Thread nD τ).loc main_arg1)) (m ((c.tc : Thread nD τ).loc main_arg2))) (m ((c.tc : Thread nD τ).loc main_arg7)) :=
  Layer0.final_5 (V0 m ρ) c

theorem outputs2 (c : Dev nD) : (dat1 (V1 m ρ) c).arrAt 4 cfg1.N = act2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Layer1.final_4 (V1 m ρ) c, V1_act, V1_arg3, V1_arg4, outputs1]
  rfl

theorem scores2 (c : Dev nD) : (dat1 (V1 m ρ) c).arrAt 5 cfg1.N = tiles128 (act2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg8)) := by
  rw [Layer1.final_5 (V1 m ρ) c, V1_act, V1_arg3, V1_arg4, V1_arg8, outputs1]
  rfl

theorem scores3 (c : Dev nD) : (dat2 (V2 m ρ) c).arrAt 5 cfg2.N = tiles128 (act3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) := by
  rw [Layer2.final_5 (V2 m ρ) c, V2_act, V2_arg5, V2_arg6, V2_arg9, outputs2]
  rfl

/-- The result buffer's final contents are the class scores of the arguments. -/
theorem result_eq (c : Dev nD) :
    tail ((dat0 (V0 m ρ) c).arrAt 5 cfg0.N) ((dat1 (V1 m ρ) c).arrAt 5 cfg1.N) ((dat2 (V2 m ρ) c).arrAt 5 cfg2.N)
      = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [scores1, scores2, scores3]
  funext i
  obtain ⟨b, c', rfl⟩ : ∃ (b : Fin 64) (c' : Fin 100), i = ix2 b c' := ⟨i 0, i 1, eq_ix2 i⟩
  rw [tail_scores]
  rfl

end Cert.KernelIdeal.Result

end
-- ==== Proof.RefValue.lean ====
/-
  The reference computes the same function. Its program is a line of whole-array operations: the comparison with 1/2
  and its conversion give the input's bits; each layer transposes its two synapse matrices, multiplies the
  activations with them, compares both products with 4, takes the disjunction and converts it; the scores are the
  three products of a layer's outputs with its output strengths, added in order. Read at an index, a product is the
  sum over the contracted axis and a transpose swaps the two coordinates, so each stage is the specification's.
-/
import proofs.«169855_j90048284328142_2_alg».proof.Proof.Gen.ReferenceIdeal.Read
import proofs.«169855_j90048284328142_2_alg».proof.Proof.Spec

noncomputable section

namespace Cert.ReferenceIdeal.RefValue

open Cert.ReferenceIdeal Cert.ReferenceIdeal.Read Cert.SegmentNet
open Idealize.ShloMosaic Idealize.ShloMosaic.ValueIdx

/-! ## The operand indices of each product, by coordinates -/

theorem l4 (b : Fin 64) (h : Fin 8192) (k : Fin 2048) : lidx_main_v4 (ix2 b h) k = ix2 b k :=
  funext fun a => Fin.ext (by match a with | ⟨0, _⟩ => rfl | ⟨1, _⟩ => rfl)
theorem r4 (b : Fin 64) (h : Fin 8192) (k : Fin 2048) : idx_main_v3 (ridx_main_v4 (ix2 b h) k) = ix2 h k :=
  funext fun a => Fin.ext (by match a with | ⟨0, _⟩ => rfl | ⟨1, _⟩ => rfl)
theorem l6 (b : Fin 64) (h : Fin 8192) (k : Fin 2048) : lidx_main_v6 (ix2 b h) k = ix2 b k :=
  funext fun a => Fin.ext (by match a with | ⟨0, _⟩ => rfl | ⟨1, _⟩ => rfl)
theorem r6 (b : Fin 64) (h : Fin 8192) (k : Fin 2048) : idx_main_v5 (ridx_main_v6 (ix2 b h) k) = ix2 h k :=
  funext fun a => Fin.ext (by match a with | ⟨0, _⟩ => rfl | ⟨1, _⟩ => rfl)
theorem l14 (b : Fin 64) (h : Fin 8192) (k : Fin 8192) : lidx_main_v14 (ix2 b h) k = ix2 b k :=
  funext fun a => Fin.ext (by match a with | ⟨0, _⟩ => rfl | ⟨1, _⟩ => rfl)
theorem r14 (b : Fin 64) (h : Fin 8192) (k : Fin 8192) : idx_main_v13 (ridx_main_v14 (ix2 b h) k) = ix2 h k :=
  funext fun a => Fin.ext (by match a with | ⟨0, _⟩ => rfl | ⟨1, _⟩ => rfl)
theorem l16 (b : Fin 64) (h : Fin 8192) (k : Fin 8192) : lidx_main_v16 (ix2 b h) k = ix2 b k :=
  funext fun a => Fin.ext (by match a with | ⟨0, _⟩ => rfl | ⟨1, _⟩ => rfl)
theorem r16 (b : Fin 64) (h : Fin 8192) (k : Fin 8192) : idx_main_v15 (ridx_main_v16 (ix2 b h) k) = ix2 h k :=
  funext fun a => Fin.ext (by match a with | ⟨0, _⟩ => rfl | ⟨1, _⟩ => rfl)
theorem l24 (b : Fin 64) (h : Fin 8192) (k : Fin 8192) : lidx_main_v24 (ix2 b h) k = ix2 b k :=
  funext fun a => Fin.ext (by match a with | ⟨0, _⟩ => rfl | ⟨1, _⟩ => rfl)
theorem r24 (b : Fin 64) (h : Fin 8192) (k : Fin 8192) : idx_main_v23 (ridx_main_v24 (ix2 b h) k) = ix2 h k :=
  funext fun a => Fin.ext (by match a with | ⟨0, _⟩ => rfl | ⟨1, _⟩ => rfl)
theorem l26 (b : Fin 64) (h : Fin 8192) (k : Fin 8192) : lidx_main_v26 (ix2 b h) k = ix2 b k :=
  funext fun a => Fin.ext (by match a with | ⟨0, _⟩ => rfl | ⟨1, _⟩ => rfl)
theorem r26 (b : Fin 64) (h : Fin 8192) (k : Fin 8192) : idx_main_v25 (ridx_main_v26 (ix2 b h) k) = ix2 h k :=
  funext fun a => Fin.ext (by match a with | ⟨0, _⟩ => rfl | ⟨1, _⟩ => rfl)
theorem l33 (b : Fin 64) (c : Fin 100) (k : Fin 8192) : lidx_main_v33 (ix2 b c) k = ix2 b k :=
  funext fun a => Fin.ext (by match a with | ⟨0, _⟩ => rfl | ⟨1, _⟩ => rfl)
theorem r33 (b : Fin 64) (c : Fin 100) (k : Fin 8192) : ridx_main_v33 (ix2 b c) k = ix2 k c :=
  funext fun a => Fin.ext (by match a with | ⟨0, _⟩ => rfl | ⟨1, _⟩ => rfl)
theorem l34 (b : Fin 64) (c : Fin 100) (k : Fin 8192) : lidx_main_v34 (ix2 b c) k = ix2 b k :=
  funext fun a => Fin.ext (by match a with | ⟨0, _⟩ => rfl | ⟨1, _⟩ => rfl)
theorem r34 (b : Fin 64) (c : Fin 100) (k : Fin 8192) : ridx_main_v34 (ix2 b c) k = ix2 k c :=
  funext fun a => Fin.ext (by match a with | ⟨0, _⟩ => rfl | ⟨1, _⟩ => rfl)
theorem l36 (b : Fin 64) (c : Fin 100) (k : Fin 8192) : lidx_main_v36 (ix2 b c) k = ix2 b k :=
  funext fun a => Fin.ext (by match a with | ⟨0, _⟩ => rfl | ⟨1, _⟩ => rfl)
theorem r36 (b : Fin 64) (c : Fin 100) (k : Fin 8192) : ridx_main_v36 (ix2 b c) k = ix2 k c :=
  funext fun a => Fin.ext (by match a with | ⟨0, _⟩ => rfl | ⟨1, _⟩ => rfl)

/-! ## The stages -/

/-- The converted comparison with 1/2 is the input's bits. -/
theorem bits_eq (x0 : (⟨S64x2048, .f32⟩ : BufTy).Contents (Elt Ideal)) : val_main_v2 (F := Ideal) x0 = inBits x0 := by
  funext i
  rw [val_main_v2_apply, val_main_v1_apply, val_main_v0_apply, val_main_cst_apply]
  rfl

/-- The first layer's outputs. -/
theorem act1_eq (x0 : (⟨S64x2048, .f32⟩ : BufTy).Contents (Elt Ideal)) (x1 x2 : (⟨S8192x2048, .f32⟩ : BufTy).Contents (Elt Ideal)) : val_main_v12 (F := Ideal) x0 x1 x2 = act1 x0 x1 x2 := by
  funext i
  obtain ⟨b, h, rfl⟩ : ∃ (b : Fin 64) (h : Fin 8192), i = ix2 b h := ⟨i 0, i 1, eq_ix2 i⟩
  rw [val_main_v12_apply, val_main_v11_apply, val_main_v8_apply, val_main_v10_apply, val_main_v4_apply, val_main_v6_apply,
    val_main_v7_apply, val_main_v9_apply, val_main_cst_0_apply, val_main_cst_1_apply]
  simp only [val_main_v3_apply, val_main_v5_apply, bits_eq, l4, r4, l6, r6]
  rfl

/-- The second layer's outputs. -/
theorem act2_eq (x0 : (⟨S64x2048, .f32⟩ : BufTy).Contents (Elt Ideal)) (x1 x2 : (⟨S8192x2048, .f32⟩ : BufTy).Contents (Elt Ideal)) (x3 x4 : (⟨S8192x8192, .f32⟩ : BufTy).Contents (Elt Ideal)) :
    val_main_v22 (F := Ideal) x0 x1 x2 x3 x4 = act2 x0 x1 x2 x3 x4 := by
  funext i
  obtain ⟨b, h, rfl⟩ : ∃ (b : Fin 64) (h : Fin 8192), i = ix2 b h := ⟨i 0, i 1, eq_ix2 i⟩
  rw [val_main_v22_apply, val_main_v21_apply, val_main_v18_apply, val_main_v20_apply, val_main_v14_apply, val_main_v16_apply,
    val_main_v17_apply, val_main_v19_apply, val_main_cst_2_apply, val_main_cst_3_apply]
  simp only [val_main_v13_apply, val_main_v15_apply, act1_eq, l14, r14, l16, r16]
  rfl

/-- The third layer's outputs. -/
theorem act3_eq (x0 : (⟨S64x2048, .f32⟩ : BufTy).Contents (Elt Ideal)) (x1 x2 : (⟨S8192x2048, .f32⟩ : BufTy).Contents (Elt Ideal)) (x3 x4 x5 x6 : (⟨S8192x8192, .f32⟩ : BufTy).Contents (Elt Ideal)) :
    val_main_v32 (F := Ideal) x0 x1 x2 x3 x4 x5 x6 = act3 x0 x1 x2 x3 x4 x5 x6 := by
  funext i
  obtain ⟨b, h, rfl⟩ : ∃ (b : Fin 64) (h : Fin 8192), i = ix2 b h := ⟨i 0, i 1, eq_ix2 i⟩
  rw [val_main_v32_apply, val_main_v31_apply, val_main_v28_apply, val_main_v30_apply, val_main_v24_apply, val_main_v26_apply,
    val_main_v27_apply, val_main_v29_apply, val_main_cst_4_apply, val_main_cst_5_apply]
  simp only [val_main_v23_apply, val_main_v25_apply, act2_eq, l24, r24, l26, r26]
  rfl

/-- The reference's result is the class scores. -/
theorem logits_eq (x0 : (⟨S64x2048, .f32⟩ : BufTy).Contents (Elt Ideal)) (x1 x2 : (⟨S8192x2048, .f32⟩ : BufTy).Contents (Elt Ideal)) (x3 x4 x5 x6 : (⟨S8192x8192, .f32⟩ : BufTy).Contents (Elt Ideal))
    (x7 x8 x9 : (⟨S8192x100, .f32⟩ : BufTy).Contents (Elt Ideal)) :
    val_main_v37 (F := Ideal) x0 x1 x2 x3 x4 x5 x6 x7 x8 x9 = logits x0 x1 x2 x3 x4 x5 x6 x7 x8 x9 := by
  funext i
  obtain ⟨b, c, rfl⟩ : ∃ (b : Fin 64) (c : Fin 100), i = ix2 b c := ⟨i 0, i 1, eq_ix2 i⟩
  rw [val_main_v37_apply, val_main_v35_apply, val_main_v33_apply, val_main_v34_apply, val_main_v36_apply]
  simp only [act1_eq, act2_eq, act3_eq, l33, r33, l34, r34, l36, r36]
  rfl

end Cert.ReferenceIdeal.RefValue

end
-- ==== Proof.lean ====
/-
  A three-layer network of threshold neurons with two synapse segments each, on a batch of 64 inputs: the tiled
  kernel against the whole-array reference, equal as extended reals.

  The input is thresholded at 1/2 into bits. A neuron outputs 1 when either of its two segments' inner products with
  the previous layer's bits reaches 4, else 0. The class scores add, over the three layers, the inner products of a
  layer's outputs with its output strengths.

  The kernel computes a layer tile by tile (512 neurons per tile in the first layer, 128 in the others): each step
  writes its tile's outputs and the tile's contribution to the scores, and the host afterwards sums the contributions
  over the tiles and adds the three layers. The reference computes each layer and each score as one whole product.
  Roundings are the identity on the extended reals, a product into a zero accumulator is the plain sum, and the two
  ways of converting a comparison's bit give the same 0 or 1; what remains is that a sum over all 8192 neurons equals
  the sum of its tiles' sums, which holds by commutativity and associativity alone. So the precondition (finite
  inputs) is never opened.

  The three frames: the two kernel programs' are the generated frame certificates; the reference's is its generated
  run with the result dropped. The idealization rewrote nothing, so its statement is trivial. For the equivalence,
  the kernel's run is followed through its three layer computations and the host operations after them with every
  buffer named (Proof/WholeRun.lean), each layer's two result arrays are read as whole-array functions of what the
  layer finds (Proof/Layer0.lean, Layer1.lean, Layer2.lean over Proof/Bodies.lean and Proof/Products.lean), and the
  result is the specification's class scores (Proof/Result.lean over Proof/Spec.lean); the reference's run gives the
  same function (Proof/RefValue.lean).
-/
import proofs.«169855_j90048284328142_2_alg».proof.Defs
import proofs.«169855_j90048284328142_2_alg».proof.Proof.Gen.Kernel
import proofs.«169855_j90048284328142_2_alg».proof.Proof.Gen.Kernel.Skeleton
import proofs.«169855_j90048284328142_2_alg».proof.Proof.Gen.Kernel.Launch
import proofs.«169855_j90048284328142_2_alg».proof.Proof.Gen.Kernel.Points
import proofs.«169855_j90048284328142_2_alg».proof.Proof.Gen.Kernel.Frame
import proofs.«169855_j90048284328142_2_alg».proof.Proof.Gen.KernelIdeal
import proofs.«169855_j90048284328142_2_alg».proof.Proof.Gen.KernelIdeal.Skeleton
import proofs.«169855_j90048284328142_2_alg».proof.Proof.Gen.KernelIdeal.Launch
import proofs.«169855_j90048284328142_2_alg».proof.Proof.Gen.KernelIdeal.Points
import proofs.«169855_j90048284328142_2_alg».proof.Proof.Gen.KernelIdeal.Frame
import proofs.«169855_j90048284328142_2_alg».proof.Proof.Gen.ReferenceIdeal
import proofs.«169855_j90048284328142_2_alg».proof.Proof.Gen.ReferenceIdeal.Run
import proofs.«169855_j90048284328142_2_alg».proof.Proof.Gen.ReferenceIdeal.Read
import proofs.«169855_j90048284328142_2_alg».proof.Proof.Gen.Pre_finite_inputs
import proofs.«169855_j90048284328142_2_alg».proof.Proof.Result
import proofs.«169855_j90048284328142_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's class scores of the (agreeing) arguments in their result buffers. -/
theorem algebraic : Cert.algebraic_KernelIdeal_ReferenceIdeal := by
  intro m ρ m' ρ' _ hagree
  refine ⟨fun c => Cert.SegmentNet.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Result.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v37_eq, Cert.ReferenceIdeal.RefValue.logits_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
